-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S64x10 .f32) (main_arg9 : FVec F S10 .f32) (main_arg10 : FVec F S64x10 .f32) (main_v33 : IVec S_ 1) : IVec S_ 1 :=
  let main_v34 : FVec F S64x10 .f32 := Host.absf main_arg8
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S64x10 .f32 := Host.absf main_arg10
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x10 .f32) (main_arg9 : FVec F S10 .f32) (main_arg10 : FVec F S64x10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x10 .f32) (main_arg9 : FVec F S10 .f32) (main_arg10 : FVec F S64x10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S1x10 : Shape := ⟨2, ![1, 10]⟩
abbrev S100000x10 : Shape := ⟨2, ![100000, 10]⟩
abbrev S10000x10 : Shape := ⟨2, ![10000, 10]⟩
abbrev S10000 : Shape := ⟨1, ![10000]⟩
abbrev S10000x1 : Shape := ⟨2, ![10000, 1]⟩

abbrev nBuf : Space → Nat
  | .hbm => 82
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x10, .f32⟩
  | .hbm, ⟨9, _⟩ => ⟨S10, .f32⟩
  | .hbm, ⟨10, _⟩ => ⟨S64x10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S1x10, .f32⟩
  | .hbm, ⟨81, _⟩ => ⟨S100000x10, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x10, .f32⟩
  | .local _ .vmem, ⟨23, _⟩ => ⟨S1x10, .f32⟩
  | .local _ .vmem, ⟨24, _⟩ => ⟨S64x10, .f32⟩
  | .local _ .vmem, ⟨25, _⟩ => ⟨S10000x10, .f32⟩
  | .local _ .vmem, ⟨26, _⟩ => ⟨S10000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  inb_S10000x10_S10000x10_0_0 : ∀ a, (![0, 0] : Fin 2 → Nat) a + S10000x10.size a ≤ S10000x10.size a
  h_S10000x10 : 0 < S10000x10.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x10_S10000x10_1_0_0_1_n_n_wf : DotDims.WF S10000x64 S64x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x10.size a ≤ S64x10.size a
  hwx2_2 : ∀ i : grid2.Coords, EltTy.bits .f32 = 32 ∨ (Rect.block (s := S64x10) S64x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x10.size a ≤ S64x10.size a
  hwx2_4 : ∀ i : grid2.Coords, EltTy.bits .f32 = 32 ∨ (Rect.block (s := S64x10) S64x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x10.size a ≤ S100000x10.size a
  hwx2_5 : ∀ i : grid2.Coords, EltTy.bits .f32 = 32 ∨ (Rect.block (s := S100000x10) S10000x10.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

abbrev win0_0 : Pipeline.Window sig grid0 :=
  Pipeline.Window.ofSpec (Memref.whole main_v23) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S10000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x10 : Shape := ⟨2, ![100000, 10]⟩
abbrev S1x10 : Shape := ⟨2, ![1, 10]⟩

abbrev nBuf : Space → Nat
  | .hbm => 115
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x10, .f32⟩
  | .hbm, ⟨9, _⟩ => ⟨S10, .f32⟩
  | .hbm, ⟨10, _⟩ => ⟨S64x10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S100000x10, .f32⟩
  | .hbm, ⟨95, _⟩ => ⟨S1x10, .f32⟩
  | .hbm, ⟨96, _⟩ => ⟨S100000x10, .f32⟩
  | .hbm, ⟨97, _⟩ => ⟨S100000x10, .f32⟩
  | .hbm, ⟨98, _⟩ => ⟨S100000x10, .f32⟩
  | .hbm, ⟨99, _⟩ => ⟨S100000x10, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x10, .f32⟩
  | .hbm, ⟨107, _⟩ => ⟨S100000x10, .f32⟩
  | .hbm, ⟨108, _⟩ => ⟨S100000x10, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S100000x10, .f32⟩
  | .hbm, ⟨114, _⟩ => ⟨S100000x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call2_cst : Ref sig .tc := ⟨.hbm, 75, rfl⟩
abbrev main_call2_v0 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_call3_cst_0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_cst_1 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_v70 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000x1_S100000x10_0_1 : S100000x1.BroadcastsInDim S100000x10 (![0, 1] : Fin 2 → Fin S100000x10.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.KernelRun.lean ====
/-
  The idealized kernel's whole run, with the result named.

  The program is three launches of the dense layer among stretches of host operations. Every weakly fair execution
  terminates without a fault; in the final state each argument array is as launched, and the result array holds what the
  fold of the program's segments leaves at its buffer: the host stretches' operations applied in order, each launch's output
  array at what its grid points wrote back.
-/
import proofs.«102765_j20968030339123_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-regions theorem's implicit arguments are found by unifying its conclusion with this one
set_option backward.isDefEq.respectTransparency.types false in
/-- From any memory with zero counters every weakly fair execution of the program terminates, nothing faulting; the
    result buffer ends at the last boundary's contents and the eleven argument arrays end as launched. -/
theorem run_value : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunV

end
-- ==== Proof.LayerSpec.lean ====
/-
  One layer of the graph convolution, as a function of whole arrays.

  Each layer takes the aggregated features `A` and the node features `X` (both `[a, d]`), two weight matrices `W` and
  `Wr` (both `[d, e]`) and a bias `b` of length `e`. Row `p` of the result depends on row `p` of `A` and of `X` only:

    pre (p, q) = (∑ k, A (p, k) * W (k, q)) + (∑ k, X (p, k) * Wr (k, q)) + b q.

  The two hidden layers clamp this at zero from below; the last layer subtracts from each row its logarithm of the sum of
  exponentials, computed after subtracting the row's maximum (the maximum taken from `-∞`, and once more against `-∞`).

  The two bit patterns that occur, of zero and of `-∞`, are kept as patterns: both programs carry the same ones, so
  their values never have to be computed here, except that the pattern of zero is the neutral summand.
-/
import Idealize.ShloMosaic.PureOps.Ideal
import Idealize.ShloMosaic.Lib.ValueIdx

noncomputable section

namespace Cert.Gcn

open Idealize.ShloMosaic Idealize.ShloMosaic.ValueIdx

/-- What the 32-bit pattern of `-∞` denotes on the extended reals. -/
abbrev negInf : EReal := Ideal.ofBits .f32 0xFF800000#32

/-- What the 32-bit pattern of zero denotes on the extended reals. -/
abbrev zeroW : EReal := Ideal.ofBits .f32 0x00000000#32

/-- The affine part of a layer: entry `(p, q)` is row `p` of `A` against column `q` of `W`, plus row `p` of `X`
    against column `q` of `Wr`, plus `b q`. -/
def preLayer {a d e : ℕ} (A X : (⟨2, ![a, d]⟩ : Shape).Idx → EReal) (W Wr : (⟨2, ![d, e]⟩ : Shape).Idx → EReal)
    (b : Fin e → EReal) : (⟨2, ![a, e]⟩ : Shape).Idx → EReal := fun j =>
  (∑ k : Fin d, A (ix2 (j 0) k) * W (ix2 k (j 1))) + (∑ k : Fin d, X (ix2 (j 0) k) * Wr (ix2 k (j 1))) + b (j 1)

/-- Clamping at zero from below, entry by entry. -/
def reluOf {s : Shape} (H : s.Idx → EReal) : s.Idx → EReal := fun j => max (H j) zeroW

/-- The maximum of row `p`, taken from `-∞` and once more against `-∞`. -/
def rowMax {a e : ℕ} (H : (⟨2, ![a, e]⟩ : Shape).Idx → EReal) (p : Fin a) : EReal :=
  max negInf ((Finset.univ : Finset (Fin e)).fold max negInf fun q => H (ix2 p q))

/-- Each row minus its maximum, minus the logarithm of the sum of the exponentials of those differences. -/
def lsmOf {a e : ℕ} (H : (⟨2, ![a, e]⟩ : Shape).Idx → EReal) : (⟨2, ![a, e]⟩ : Shape).Idx → EReal := fun j =>
  (H j - rowMax H (j 0)) - Ideal.log (∑ q : Fin e, Ideal.exp (H (ix2 (j 0) q) - rowMax H (j 0)))

end Cert.Gcn

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«102765_j20968030339123_1_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.LayerKernel.lean ====
/-
  One layer of the graph convolution written with whole-array operations is the layer of the specification.

  Three statements, on the extended reals and for all extents `a`, `d`, `e`:

  * the sum of two matrix products into zero accumulators, `A · W` and `X · Wr` (`[a, d]` by `[d, e]`), plus a row
    `[1, e]` repeated over the `a` rows, is the affine part `preLayer`, with the bias read off that row;
  * the entrywise maximum of an array with the constant array of the pattern of zero is `reluOf`;
  * an `[a, e]` array minus its column of row maxima (the reduction by maximum along the second axis from `-∞`, taken
    once more against `-∞`, laid as a column `[a, 1]` and repeated along the columns), minus the logarithm of the row
    sums of the exponentials of those differences (laid out the same way), is `lsmOf`.

  Two auxiliary statements read the vector of row maxima at a row, and its repeated column at an entry.
-/
import Idealize.ShloMosaic.PureOps.Ideal.Laws
import Idealize.ShloMosaic.Lib.ValueIdx
import Idealize.ShloMosaic.Lib.Pipeline.Value
import Idealize.ShloMosaic.Lib.ValueLayout
import proofs.«102765_j20968030339123_1_alg».proof.Proof.LayerSpec
import proofs.«102765_j20968030339123_1_alg».proof.Proof.LibPlainMatmul
import proofs.«102765_j20968030339123_1_alg».proof.Proof.LibColumnLayout

noncomputable section

namespace Cert.Gcn.VecLaws

open Idealize.ShloMosaic Idealize.ShloMosaic.ValueIdx Cert.Gcn

/-- Two matrix products into zero accumulators, added, plus a row `[1, e]` repeated over the rows: entry `(p, q)` is
    row `p` of `A` against column `q` of `W`, plus row `p` of `X` against column `q` of `Wr`, plus the row's entry `q`. -/
theorem vec_pre {a d e : ℕ} (A X : FVec Ideal ⟨2, ![a, d]⟩ .f32) (W Wr : FVec Ideal ⟨2, ![d, e]⟩ .f32) (b2 : FVec Ideal ⟨2, ![1, e]⟩ .f32)
    (hbc : (⟨2, ![1, e]⟩ : Shape).Broadcasts ⟨2, ![a, e]⟩) :
    addf (addf (matmul (DotDims.plain a d e) none A W (constant ⟨2, ![a, e]⟩ .f32 0x00000000#32))
               (matmul (DotDims.plain a d e) none X Wr (constant ⟨2, ![a, e]⟩ .f32 0x00000000#32)))
         (broadcastTo ⟨2, ![a, e]⟩ b2 hbc)
      = preLayer A X W Wr (fun q => b2 (ix2 (0 : Fin 1) q)) := by
  funext j
  obtain ⟨p, q, rfl⟩ : ∃ (p : Fin a) (q : Fin e), j = ix2 p q := ⟨j 0, j 1, eq_ix2 j⟩
  exact congrArg₂ (· + ·)
    (congrArg₂ (· + ·) (PlainMatmul.plain_matmul_zero_apply a d e none A W p q)
      (PlainMatmul.plain_matmul_zero_apply a d e none X Wr p q))
    (broadcastTo_1b_ab_apply b2 hbc p q)

/-- The entrywise maximum with the constant array of the pattern of zero is the clamp at zero from below. -/
theorem vec_relu {s : Shape} (H : FVec Ideal s .f32) :
    maximumf H (broadcast s (Scalar.ofBits (F := Ideal) .f32 0x00000000#32)) = reluOf H := by
  funext j
  rfl

/-- The maximum of `-∞` and the reduction by maximum along the second axis, at row `p`: the row's maximum from `-∞`,
    once more against `-∞`. -/
theorem rowMax_vec_apply {a e : ℕ} (H : FVec Ideal ⟨2, ![a, e]⟩ .f32)
    (hr : (⟨2, ![a, e]⟩ : Shape).Reduces [1] ⟨1, ![a]⟩) (hφ : FKind.Formats .f32)
    (hmax : (0xFF800000#32 : BitVec 32) = FKind.maximumf.neutral .f32 hφ) (p : Fin a) :
    maximumf (broadcast ⟨1, ![a]⟩ (Scalar.ofBits (F := Ideal) .f32 0xFF800000#32))
        (multiReduction .maximumf [1] ⟨1, ![a]⟩ H 0xFF800000#32 hr hφ hmax) (ix1 p)
      = rowMax H p := by
  refine congrArg (max negInf) ?_
  refine (Ideal.multiReduction_maximumf_single H _ hr hφ hmax (ix1 p)).trans ?_
  have hf : (H ∘ hr.lift (ix1 p)) = fun d : Fin e => H (ix2 p d) := by
    funext d
    refine congrArg H ?_
    funext ax; apply Fin.ext
    match ax with
    | ⟨0, _⟩ => rfl
    | ⟨1, _⟩ => rfl
  exact congrArg (fun f => Finset.fold max negInf f (Finset.univ : Finset (Fin e))) hf

/-- That vector of row maxima laid as a column `[a, 1]` and repeated along the columns, at `(p, c)`: the maximum of row `p`. -/
theorem rowMaxCol_apply {a e : ℕ} (H : FVec Ideal ⟨2, ![a, e]⟩ .f32)
    (hr : (⟨2, ![a, e]⟩ : Shape).Reduces [1] ⟨1, ![a]⟩) (hsc : (⟨1, ![a]⟩ : Shape).ShapeCasts ⟨2, ![a, 1]⟩)
    (hbc : (⟨2, ![a, 1]⟩ : Shape).Broadcasts ⟨2, ![a, e]⟩) (hφ : FKind.Formats .f32)
    (hmax : (0xFF800000#32 : BitVec 32) = FKind.maximumf.neutral .f32 hφ) (p : Fin a) (c : Fin e) :
    broadcastTo ⟨2, ![a, e]⟩ (shapeCast ⟨2, ![a, 1]⟩ (maximumf (broadcast ⟨1, ![a]⟩ (Scalar.ofBits (F := Ideal) .f32 0xFF800000#32))
        (multiReduction .maximumf [1] ⟨1, ![a]⟩ H 0xFF800000#32 hr hφ hmax)) hsc) hbc (ix2 p c)
      = rowMax H p :=
  (LibColumnLayout.broadcastTo_a1_ab_apply _ hbc p c).trans
    ((LibColumnLayout.shapeCast_a_a1_apply _ hsc p (0 : Fin 1)).trans (rowMax_vec_apply H hr hφ hmax p))

/-- An `[a, e]` array minus its repeated column of row maxima, minus the repeated column of the logarithms of the row sums
    of the exponentials of those differences, is the specification's last step. -/
theorem vec_lsm {a e : ℕ} (H : FVec Ideal ⟨2, ![a, e]⟩ .f32)
    (hr : (⟨2, ![a, e]⟩ : Shape).Reduces [1] ⟨1, ![a]⟩) (hsc : (⟨1, ![a]⟩ : Shape).ShapeCasts ⟨2, ![a, 1]⟩) (hbc : (⟨2, ![a, 1]⟩ : Shape).Broadcasts ⟨2, ![a, e]⟩)
    (hφ : FKind.Formats .f32) (hmax : (0xFF800000#32 : BitVec 32) = FKind.maximumf.neutral .f32 hφ) (hadd : (0x00000000#32 : BitVec 32) = FKind.add.neutral .f32 hφ) :
    subf (subf H (broadcastTo ⟨2, ![a, e]⟩ (shapeCast ⟨2, ![a, 1]⟩ (maximumf (broadcast ⟨1, ![a]⟩ (Scalar.ofBits (F := Ideal) .f32 0xFF800000#32)) (multiReduction .maximumf [1] ⟨1, ![a]⟩ H 0xFF800000#32 hr hφ hmax)) hsc) hbc))
         (broadcastTo ⟨2, ![a, e]⟩ (log (shapeCast ⟨2, ![a, 1]⟩ (multiReduction .add [1] ⟨1, ![a]⟩ (exp (subf H (broadcastTo ⟨2, ![a, e]⟩ (shapeCast ⟨2, ![a, 1]⟩ (maximumf (broadcast ⟨1, ![a]⟩ (Scalar.ofBits (F := Ideal) .f32 0xFF800000#32)) (multiReduction .maximumf [1] ⟨1, ![a]⟩ H 0xFF800000#32 hr hφ hmax)) hsc) hbc))) 0x00000000#32 hr hφ hadd) hsc)) hbc)
      = lsmOf H := by
  funext j
  obtain ⟨p, q, rfl⟩ : ∃ (p : Fin a) (q : Fin e), j = ix2 p q := ⟨j 0, j 1, eq_ix2 j⟩
  refine congrArg₂ (· - ·) (congrArg (H (ix2 p q) - ·) (rowMaxCol_apply H hr hsc hbc hφ hmax p q)) ?_
  refine (LibColumnLayout.broadcastTo_a1_ab_apply _ hbc p q).trans ?_
  refine congrArg Ideal.log ?_
  refine (LibColumnLayout.shapeCast_a_a1_apply _ hsc p (0 : Fin 1)).trans ?_
  refine (LibColumnLayout.multiReduction_add_rows_apply _ _ hr hφ hadd p).trans ?_
  exact Finset.sum_congr rfl fun d _ =>
    congrArg Ideal.exp (congrArg (H (ix2 p d) - ·) (rowMaxCol_apply H hr hsc hbc hφ hmax p d))

end Cert.Gcn.VecLaws

end
-- ==== Proof.Payloads.lean ====
/-
  The value each launch stores is one layer of the specification applied to the blocks it loaded.

  For blocks `A`, `X` of `[10000, 64]`, weights `W`, `Wr` and a bias row `b` of `[1, e]`:

  * the first and the second launch store `max (pre, 0)` entrywise, where
    `pre (p, q) = (∑ k, A (p, k) * W (k, q)) + (∑ k, X (p, k) * Wr (k, q)) + b (0, q)`, with `e = 64`;
  * the third launch stores, with `e = 10`, each row of `pre` minus its maximum, minus the logarithm of the sum of the
    exponentials of those differences.

  On the way: a cast of an array to its own shape is the array itself, and the dimension numbers of the products are those of
  the plain product of an `[a, d]` matrix with a `[d, e]` one.
-/
import proofs.«102765_j20968030339123_1_alg».proof.Proof.Gen.KernelIdeal.Skeleton
import proofs.«102765_j20968030339123_1_alg».proof.Proof.LayerKernel
import proofs.«102765_j20968030339123_1_alg».proof.Proof.LayerSpec
import Idealize.ShloMosaic.PureOps.Ideal
import Idealize.ShloMosaic.Lib.ValueIdx
import Idealize.ShloMosaic.Lib.Pipeline.Value

noncomputable section

namespace Cert.KernelIdeal.Payloads

open Cert.KernelIdeal Cert.KernelIdeal.Gen Cert.Gcn Idealize.ShloMosaic Idealize.ShloMosaic.ValueIdx

/-- The dimension numbers of the two hidden layers' products are those of the plain product `[10000, 64]` by `[64, 64]`. -/
theorem dot_hidden_eq : dot_S10000x64_S64x64_S10000x64_1_0_0_1_n_n = DotDims.plain 10000 64 64 := rfl

/-- The dimension numbers of the last layer's products are those of the plain product `[10000, 64]` by `[64, 10]`. -/
theorem dot_last_eq : dot_S10000x64_S64x10_S10000x10_1_0_0_1_n_n = DotDims.plain 10000 64 10 := rfl

/-- The first launch stores the first hidden layer of its blocks: the affine part clamped at zero from below. -/
theorem pay0_eq (x0 x1 : Vec Ideal S10000x64 .f32) (x2 x4 : Vec Ideal S64x64 .f32) (x3 : Vec Ideal S1x64 .f32) :
    k0_pay1 x0 x1 x2 x4 x3 = reluOf (preLayer x0 x1 x2 x4 (fun q => x3 (ix2 (0 : Fin 1) q))) := by
  unfold k0_pay1
  dsimp only
  rw [shapeCast_self, shapeCast_self, dot_hidden_eq]
  exact (VecLaws.vec_relu _).trans (congrArg reluOf (VecLaws.vec_pre x0 x1 x2 x4 x3 _))

/-- The second launch stores the second hidden layer of its blocks: the affine part clamped at zero from below. -/
theorem pay1_eq (x0 x1 : Vec Ideal S10000x64 .f32) (x2 x4 : Vec Ideal S64x64 .f32) (x3 : Vec Ideal S1x64 .f32) :
    k1_pay1 x0 x1 x2 x4 x3 = reluOf (preLayer x0 x1 x2 x4 (fun q => x3 (ix2 (0 : Fin 1) q))) := by
  unfold k1_pay1
  dsimp only
  rw [shapeCast_self, shapeCast_self, shapeCast_self, dot_hidden_eq]
  exact (VecLaws.vec_relu _).trans (congrArg reluOf (VecLaws.vec_pre x0 x1 x2 x4 x3 _))

/-- The third launch stores the last layer of its blocks: each row of the affine part minus its maximum, minus the logarithm
    of the sum of the exponentials of those differences. -/
theorem pay2_eq (x0 x1 : Vec Ideal S10000x64 .f32) (x2 x4 : Vec Ideal S64x10 .f32) (x3 : Vec Ideal S1x10 .f32) :
    k2_pay1 x0 x1 x2 x4 x3 = lsmOf (preLayer x0 x1 x2 x4 (fun q => x3 (ix2 (0 : Fin 1) q))) := by
  unfold k2_pay1
  dsimp only
  rw [shapeCast_self, shapeCast_self, shapeCast_self, dot_last_eq]
  exact (VecLaws.vec_lsm _ _ _ _ _ _ _).trans (congrArg lsmOf (VecLaws.vec_pre x0 x1 x2 x4 x3 _))

end Cert.KernelIdeal.Payloads

end
-- ==== Proof.RegionValue.lean ====
/-
  What each of the three launches leaves in its result array.

  A launch runs the dense layer on ten grid points; point `t` loads rows `10000 t … 10000 t + 9999` of the aggregated and
  of the node features, the whole of the two weight matrices and of the bias row, and writes back the same rows of the result.
  The layer is row-local — row `p` of the result is a function of row `p` of the two feature arrays and of the weights and
  bias — so what a point writes back is a block of ONE function of the whole arrays, and the ten blocks tile the
  100000 rows. Hence after the launch the result array is the layer of the arrays the launch found, whatever those are.
-/
import proofs.«102765_j20968030339123_1_alg».proof.Proof.Gen.KernelIdeal.Frame
import proofs.«102765_j20968030339123_1_alg».proof.Proof.LayerSpec
import proofs.«102765_j20968030339123_1_alg».proof.Proof.Payloads
import Idealize.ShloMosaic.Lib.Pipeline.Value
import Idealize.ShloMosaic.Lib.ValueIdx

set_option maxRecDepth 16384

noncomputable section

namespace Cert.KernelIdeal.RegionV

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat Cfg Window)

-- the buffer contents a launch finds: each statement below holds for any
variable (V : (c : Dev nD) → (b : Ref sig .tc) → Buf (Elt Ideal) ((c : Thread nD τ).loc b))

/-- Every load and store of the bodies starts at the origin of its buffer. -/
theorem zero_off : (![0, 0] : Fin 2 → Nat) = fun _ => 0 := funext fun a => by fin_cases a <;> rfl

/-! ## The specification read at an index built from coordinates -/

theorem preLayer_ix2 {a d e : ℕ} (A X : (⟨2, ![a, d]⟩ : Shape).Idx → EReal) (W Wr : (⟨2, ![d, e]⟩ : Shape).Idx → EReal)
    (b : Fin e → EReal) (p : Fin a) (q : Fin e) :
    preLayer A X W Wr b (ix2 p q)
      = (∑ k : Fin d, A (ix2 p k) * W (ix2 k q)) + (∑ k : Fin d, X (ix2 p k) * Wr (ix2 k q)) + b q := rfl

theorem reluOf_apply {s : Shape} (H : s.Idx → EReal) (j : s.Idx) : reluOf H j = max (H j) zeroW := rfl

theorem rowMax_eq {a e : ℕ} (H : (⟨2, ![a, e]⟩ : Shape).Idx → EReal) (p : Fin a) :
    rowMax H p = max negInf ((Finset.univ : Finset (Fin e)).fold max negInf fun q => H (ix2 p q)) := rfl

theorem lsmOf_ix2 {a e : ℕ} (H : (⟨2, ![a, e]⟩ : Shape).Idx → EReal) (p : Fin a) (q : Fin e) :
    lsmOf H (ix2 p q) = (H (ix2 p q) - rowMax H p) - Ideal.log (∑ r : Fin e, Ideal.exp (H (ix2 p r) - rowMax H p)) := rfl

/-! ## Launch 0 -/

/-- The block index of each window of launch 0 at each grid point: the two row-tiled inputs and the output move with
    the point, the weights and the bias stay at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of launch 0 as one function of the arrays the launch finds. -/
abbrev layer0 (c : Dev nD) : S100000x64.Idx → EReal :=
  reluOf (preLayer (V c main_v23) (V c main_arg0) (V c main_arg2) (V c main_arg4) (fun q => V c main_v24 (ix2 (0 : Fin 1) q)))

/-- Row `p` of block `t` is row `10000 t + p` of the array. -/
abbrev rowOf0 (t : Fin cfg0.N) (p : Fin 10000) : Fin 100000 :=
  ⟨t.val * 10000 + p.val, by have := t.isLt; have := p.isLt; have : cfg0.N = 10 := rfl; omega⟩

/-- What grid point `t` of launch 0 writes back is block `t` of the layer of the whole arrays: rows
    `10000 t … 10000 t + 9999` of the result depend on the same rows of the two inputs and on all of the weights and bias. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zero_off]
  simp only [View.ld_unit_zero (S := S10000x64) zero_off, View.ld_unit_zero (S := S64x64) zero_off, View.ld_unit_zero (S := S1x64) zero_off]
  rw [pay0_eq]
  obtain ⟨e00, e01, e10, e11, e20, e21, e30, e31, e40, e41, e50, e51⟩ := idx0 t
  funext y
  show reluOf (preLayer (iblk0 V c 0 t) (iblk0 V c 1 t) (iblk0 V c 2 t) (iblk0 V c 4 t) fun q => iblk0 V c 3 t (ix2 (0 : Fin 1) q)) y
     = layer0 V c (((cfg0.win 5).blk t).view.emb y)
  have r0 : ∀ (p : Fin 10000) (k : Fin 64), iblk0 V c 0 t (ix2 p k) = V c main_v23 (ix2 (rowOf0 t p) k) := fun p k => by
    show V c main_v23 (((cfg0.win 0).blk t).view.emb (ix2 p k)) = _
    refine congrArg (V c main_v23) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  have r1 : ∀ (p : Fin 10000) (k : Fin 64), iblk0 V c 1 t (ix2 p k) = V c main_arg0 (ix2 (rowOf0 t p) k) := fun p k => by
    show V c main_arg0 (((cfg0.win 1).blk t).view.emb (ix2 p k)) = _
    refine congrArg (V c main_arg0) (funext fun a => Fin.ext ?_)
    match a with
    | ⟨0, _⟩ => show win0_1.index t (0 : Fin 2) * 10000 + 1 * p.val = t.val * 10000 + p.val; omega
    | ⟨1, _⟩ => show win0_1.index t (1 : Fin 2) * 64 + 1 * k.val = k.val; omega
  have r2 : ∀ (k : Fin 64) (q : Fin 64), iblk0 V c 2 t (ix2 k q) = V c main_arg2 (ix2 k q) := fun k q => by
    show V c main_arg2 (((cfg0.win 2).blk t).view.emb (ix2 k q)) = _
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  have r4 : ∀ (k : Fin 64) (q : Fin 64), iblk0 V c 4 t (ix2 k q) = V c main_arg4 (ix2 k q) := fun k q => by
    show V c main_arg4 (((cfg0.win 4).blk t).view.emb (ix2 k q)) = _
    refine congrArg (V c main_arg4) (funext fun a => Fin.ext ?_)
    match a with
    | ⟨0, _⟩ => show win0_4.index t (0 : Fin 2) * 64 + 1 * k.val = k.val; omega
    | ⟨1, _⟩ => show win0_4.index t (1 : Fin 2) * 64 + 1 * q.val = q.val; omega
  have r3 : ∀ (q : Fin 64), iblk0 V c 3 t (ix2 (0 : Fin 1) q) = V c main_v24 (ix2 (0 : Fin 1) q) := fun q => by
    show V c main_v24 (((cfg0.win 3).blk t).view.emb (ix2 (0 : Fin 1) q)) = _
    refine congrArg (V c main_v24) (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega
  obtain ⟨p, q, rfl⟩ : ∃ (p : Fin 10000) (q : Fin 64), y = ix2 p q :=
    ⟨⟨(y 0).val, (y 0).isLt⟩, ⟨(y 1).val, (y 1).isLt⟩, funext fun a => Fin.ext (by match a with | ⟨0, _⟩ => rfl | ⟨1, _⟩ => rfl)⟩
  have hE : ((cfg0.win 5).blk t).view.emb (ix2 p q) = ix2 (rowOf0 t p) q := funext fun a => Fin.ext (by
    match a with
    | ⟨0, _⟩ => show win0_5.index t (0 : Fin 2) * 10000 + 1 * p.val = t.val * 10000 + p.val; omega
    | ⟨1, _⟩ => show win0_5.index t (1 : Fin 2) * 64 + 1 * q.val = q.val; omega)
  rw [hE]
  simp only [layer0, reluOf_apply, lsmOf_ix2, rowMax_eq, preLayer_ix2, r0, r1, r2, r3, r4]

/-- An index of the result array is in point `t`'s block iff, on each axis, its coordinate is in the block's range. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v25).slice (win0_5.rect t)).set ↔ _
  rw [View.set_slice_whole, Rect.mem_set_unit]
  exact Iff.rfl

/-- The ten blocks of 10000 rows tile the 100000 rows: row `i` is in the block of point `i / 10000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by show _ < 10; omega⟩, rfl⟩
  obtain ⟨-, -, -, -, -, -, -, -, -, -, e50, e51⟩ := idx0 t
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- After launch 0 its result array holds the layer of the arrays the launch found. -/
theorem final0 (c : Dev nD) : (dat0 V c).arrAt 5 cfg0.N = layer0 V c :=
  (dat0 V c).arrAt_eq_of_cover 5 (layer0 V c) (fun t _ => flushed0 V c t) (cover0)

/-! ## Launch 1 -/

/-- The block index of each window of launch 1 at each grid point: the two row-tiled inputs and the output move with
    the point, the weights and the bias stay at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of launch 1 as one function of the arrays the launch finds. -/
abbrev layer1 (c : Dev nD) : S100000x64.Idx → EReal :=
  reluOf (preLayer (V c main_v38) (V c main_v25) (V c main_arg5) (V c main_arg7) (fun q => V c main_v39 (ix2 (0 : Fin 1) q)))

/-- Row `p` of block `t` is row `10000 t + p` of the array. -/
abbrev rowOf1 (t : Fin cfg1.N) (p : Fin 10000) : Fin 100000 :=
  ⟨t.val * 10000 + p.val, by have := t.isLt; have := p.isLt; have : cfg1.N = 10 := rfl; omega⟩

/-- What grid point `t` of launch 1 writes back is block `t` of the layer of the whole arrays: rows
    `10000 t … 10000 t + 9999` of the result depend on the same rows of the two inputs and on all of the weights and bias. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero zero_off]
  simp only [View.ld_unit_zero (S := S10000x64) zero_off, View.ld_unit_zero (S := S64x64) zero_off, View.ld_unit_zero (S := S1x64) zero_off]
  rw [pay1_eq]
  obtain ⟨e00, e01, e10, e11, e20, e21, e30, e31, e40, e41, e50, e51⟩ := idx1 t
  funext y
  show reluOf (preLayer (iblk1 V c 0 t) (iblk1 V c 1 t) (iblk1 V c 2 t) (iblk1 V c 4 t) fun q => iblk1 V c 3 t (ix2 (0 : Fin 1) q)) y
     = layer1 V c (((cfg1.win 5).blk t).view.emb y)
  have r0 : ∀ (p : Fin 10000) (k : Fin 64), iblk1 V c 0 t (ix2 p k) = V c main_v38 (ix2 (rowOf1 t p) k) := fun p k => by
    show V c main_v38 (((cfg1.win 0).blk t).view.emb (ix2 p k)) = _
    refine congrArg (V c main_v38) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  have r1 : ∀ (p : Fin 10000) (k : Fin 64), iblk1 V c 1 t (ix2 p k) = V c main_v25 (ix2 (rowOf1 t p) k) := fun p k => by
    show V c main_v25 (((cfg1.win 1).blk t).view.emb (ix2 p k)) = _
    refine congrArg (V c main_v25) (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * k.val = k.val; omega
  have r2 : ∀ (k : Fin 64) (q : Fin 64), iblk1 V c 2 t (ix2 k q) = V c main_arg5 (ix2 k q) := fun k q => by
    show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  have r4 : ∀ (k : Fin 64) (q : Fin 64), iblk1 V c 4 t (ix2 k q) = V c main_arg7 (ix2 k q) := fun k q => by
    show V c main_arg7 (((cfg1.win 4).blk t).view.emb (ix2 k q)) = _
    refine congrArg (V c main_arg7) (funext fun a => Fin.ext ?_)
    match a with
    | ⟨0, _⟩ => show win1_4.index t (0 : Fin 2) * 64 + 1 * k.val = k.val; omega
    | ⟨1, _⟩ => show win1_4.index t (1 : Fin 2) * 64 + 1 * q.val = q.val; omega
  have r3 : ∀ (q : Fin 64), iblk1 V c 3 t (ix2 (0 : Fin 1) q) = V c main_v39 (ix2 (0 : Fin 1) q) := fun q => by
    show V c main_v39 (((cfg1.win 3).blk t).view.emb (ix2 (0 : Fin 1) q)) = _
    refine congrArg (V c main_v39) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  obtain ⟨p, q, rfl⟩ : ∃ (p : Fin 10000) (q : Fin 64), y = ix2 p q :=
    ⟨⟨(y 0).val, (y 0).isLt⟩, ⟨(y 1).val, (y 1).isLt⟩, funext fun a => Fin.ext (by match a with | ⟨0, _⟩ => rfl | ⟨1, _⟩ => rfl)⟩
  have hE : ((cfg1.win 5).blk t).view.emb (ix2 p q) = ix2 (rowOf1 t p) q := funext fun a => Fin.ext (by
    match a with
    | ⟨0, _⟩ => show win1_5.index t (0 : Fin 2) * 10000 + 1 * p.val = t.val * 10000 + p.val; omega
    | ⟨1, _⟩ => show win1_5.index t (1 : Fin 2) * 64 + 1 * q.val = q.val; omega)
  rw [hE]
  simp only [layer1, reluOf_apply, lsmOf_ix2, rowMax_eq, preLayer_ix2, r0, r1, r2, r3, r4]

/-- An index of the result array is in point `t`'s block iff, on each axis, its coordinate is in the block's range. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v40).slice (win1_5.rect t)).set ↔ _
  rw [View.set_slice_whole, Rect.mem_set_unit]
  exact Iff.rfl

/-- The ten blocks of 10000 rows tile the 100000 rows: row `i` is in the block of point `i / 10000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by show _ < 10; omega⟩, rfl⟩
  obtain ⟨-, -, -, -, -, -, -, -, -, -, e50, e51⟩ := idx1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- After launch 1 its result array holds the layer of the arrays the launch found. -/
theorem final1 (c : Dev nD) : (dat1 V c).arrAt 5 cfg1.N = layer1 V c :=
  (dat1 V c).arrAt_eq_of_cover 5 (layer1 V c) (fun t _ => flushed1 V c t) (cover1)

/-! ## Launch 2 -/

/-- The block index of each window of launch 2 at each grid point: the two row-tiled inputs and the output move with
    the point, the weights and the bias stay at block zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of launch 2 as one function of the arrays the launch finds. -/
abbrev layer2 (c : Dev nD) : S100000x10.Idx → EReal :=
  lsmOf (preLayer (V c main_v53) (V c main_v40) (V c main_arg8) (V c main_arg10) (fun q => V c main_v54 (ix2 (0 : Fin 1) q)))

/-- Row `p` of block `t` is row `10000 t + p` of the array. -/
abbrev rowOf2 (t : Fin cfg2.N) (p : Fin 10000) : Fin 100000 :=
  ⟨t.val * 10000 + p.val, by have := t.isLt; have := p.isLt; have : cfg2.N = 10 := rfl; omega⟩

/-- What grid point `t` of launch 2 writes back is block `t` of the layer of the whole arrays: rows
    `10000 t … 10000 t + 9999` of the result depend on the same rows of the two inputs and on all of the weights and bias. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero zero_off]
  simp only [View.ld_unit_zero (S := S10000x64) zero_off, View.ld_unit_zero (S := S64x10) zero_off, View.ld_unit_zero (S := S1x10) zero_off]
  rw [pay2_eq]
  obtain ⟨e00, e01, e10, e11, e20, e21, e30, e31, e40, e41, e50, e51⟩ := idx2 t
  funext y
  show lsmOf (preLayer (iblk2 V c 0 t) (iblk2 V c 1 t) (iblk2 V c 2 t) (iblk2 V c 4 t) fun q => iblk2 V c 3 t (ix2 (0 : Fin 1) q)) y
     = layer2 V c (((cfg2.win 5).blk t).view.emb y)
  have r0 : ∀ (p : Fin 10000) (k : Fin 64), iblk2 V c 0 t (ix2 p k) = V c main_v53 (ix2 (rowOf2 t p) k) := fun p k => by
    show V c main_v53 (((cfg2.win 0).blk t).view.emb (ix2 p k)) = _
    refine congrArg (V c main_v53) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  have r1 : ∀ (p : Fin 10000) (k : Fin 64), iblk2 V c 1 t (ix2 p k) = V c main_v40 (ix2 (rowOf2 t p) k) := fun p k => by
    show V c main_v40 (((cfg2.win 1).blk t).view.emb (ix2 p k)) = _
    refine congrArg (V c main_v40) (funext fun a => Fin.ext ?_)
    match a with
    | ⟨0, _⟩ => show win2_1.index t (0 : Fin 2) * 10000 + 1 * p.val = t.val * 10000 + p.val; omega
    | ⟨1, _⟩ => show win2_1.index t (1 : Fin 2) * 64 + 1 * k.val = k.val; omega
  have r2 : ∀ (k : Fin 64) (q : Fin 10), iblk2 V c 2 t (ix2 k q) = V c main_arg8 (ix2 k q) := fun k q => by
    show V c main_arg8 (((cfg2.win 2).blk t).view.emb (ix2 k q)) = _
    refine congrArg (V c main_arg8) (funext fun a => Fin.ext ?_)
    match a with
    | ⟨0, _⟩ => show win2_2.index t (0 : Fin 2) * 64 + 1 * k.val = k.val; omega
    | ⟨1, _⟩ => show win2_2.index t (1 : Fin 2) * 10 + 1 * q.val = q.val; omega
  have r4 : ∀ (k : Fin 64) (q : Fin 10), iblk2 V c 4 t (ix2 k q) = V c main_arg10 (ix2 k q) := fun k q => by
    show V c main_arg10 (((cfg2.win 4).blk t).view.emb (ix2 k q)) = _
    refine congrArg (V c main_arg10) (funext fun a => Fin.ext ?_)
    match a with
    | ⟨0, _⟩ => show win2_4.index t (0 : Fin 2) * 64 + 1 * k.val = k.val; omega
    | ⟨1, _⟩ => show win2_4.index t (1 : Fin 2) * 10 + 1 * q.val = q.val; omega
  have r3 : ∀ (q : Fin 10), iblk2 V c 3 t (ix2 (0 : Fin 1) q) = V c main_v54 (ix2 (0 : Fin 1) q) := fun q => by
    show V c main_v54 (((cfg2.win 3).blk t).view.emb (ix2 (0 : Fin 1) q)) = _
    refine congrArg (V c main_v54) (funext fun a => Fin.ext ?_)
    match a with
    | ⟨0, _⟩ => show win2_3.index t (0 : Fin 2) * 1 + 1 * 0 = 0; omega
    | ⟨1, _⟩ => show win2_3.index t (1 : Fin 2) * 10 + 1 * q.val = q.val; omega
  obtain ⟨p, q, rfl⟩ : ∃ (p : Fin 10000) (q : Fin 10), y = ix2 p q :=
    ⟨⟨(y 0).val, (y 0).isLt⟩, ⟨(y 1).val, (y 1).isLt⟩, funext fun a => Fin.ext (by match a with | ⟨0, _⟩ => rfl | ⟨1, _⟩ => rfl)⟩
  have hE : ((cfg2.win 5).blk t).view.emb (ix2 p q) = ix2 (rowOf2 t p) q := funext fun a => Fin.ext (by
    match a with
    | ⟨0, _⟩ => show win2_5.index t (0 : Fin 2) * 10000 + 1 * p.val = t.val * 10000 + p.val; omega
    | ⟨1, _⟩ => show win2_5.index t (1 : Fin 2) * 10 + 1 * q.val = q.val; omega)
  rw [hE]
  simp only [layer2, reluOf_apply, lsmOf_ix2, rowMax_eq, preLayer_ix2, r0, r1, r2, r3, r4]

/-- An index of the result array is in point `t`'s block iff, on each axis, its coordinate is in the block's range. -/
theorem mem_blk2 (t : Fin cfg2.N) (i : S100000x10.Idx) :
    i ∈ ((cfg2.win 5).blk t).view.set ↔ ∀ a : Fin 2, win2_5.index t a * S10000x10.size a ≤ (i a).val ∧ (i a).val < win2_5.index t a * S10000x10.size a + S10000x10.size a := by
  show i ∈ ((View.whole main_v55).slice (win2_5.rect t)).set ↔ _
  rw [View.set_slice_whole, Rect.mem_set_unit]
  exact Iff.rfl

/-- The ten blocks of 10000 rows tile the 100000 rows: row `i` is in the block of point `i / 10000`. -/
theorem cover2 (i : S100000x10.Idx) : ∃ t : Fin cfg2.N, (cfg2.win 5).flush t = true ∧ i ∈ ((cfg2.win 5).blk t).view.set := by
  have hi0 : (i 0).val < 100000 := (i 0).isLt
  have hi1 : (i 1).val < 10 := (i 1).isLt
  obtain ⟨t, ht⟩ : ∃ t : Fin cfg2.N, t.val = (i 0).val / 10000 := ⟨⟨(i 0).val / 10000, by show _ < 10; omega⟩, rfl⟩
  obtain ⟨-, -, -, -, -, -, -, -, -, -, e50, e51⟩ := idx2 t
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 10 ≤ (i 1).val ∧ (i 1).val < win2_5.index t (1 : Fin 2) * 10 + 10; omega

/-- After launch 2 its result array holds the layer of the arrays the launch found. -/
theorem final2 (c : Dev nD) : (dat2 V c).arrAt 5 cfg2.N = layer2 V c :=
  (dat2 V c).arrAt_eq_of_cover 5 (layer2 V c) (fun t _ => flushed2 V c t) (cover2)

end Cert.KernelIdeal.RegionV

end
-- ==== Proof.HostK.lean ====
/-
  The host operations of the idealized kernel's program, read back stretch by stretch.

  Between the launches the program computes, from the edge list, the source and destination rows, each node's in-degree
  clamped at one and its reciprocal, and before every launch the mean of the current features over incoming edges. Each
  statement says what one buffer holds after one stretch of operations, as a function of what the buffers held before it,
  for ANY contents before it.
-/
import proofs.«102765_j20968030339123_1_alg».proof.Proof.Gen.KernelIdeal.Launch
import Idealize.ShloMosaic.Lib.StableHlo.Run
import Idealize.ShloMosaic.PureOps.Ideal

set_option maxRecDepth 16384
set_option maxHeartbeats 2000000

noncomputable section

namespace Cert.KernelIdeal.HostV

open Cert.KernelIdeal Cert.KernelIdeal.Gen
open Idealize.ShloMosaic Idealize.ShloMosaic.TcCoe Idealize.SL.Sem Idealize.ShloMosaic.StableHlo

/-- Row 0 of the edge list as a vector: the node each edge leaves. -/
def srcOf (E : IVec S2x1600000 32) : IVec S1600000 32 :=
  shapeCast S1600000 (extractStridedSlice S1x1600000 ![0, 0] E slices_S2x1600000_S1x1600000_0_0) shapeCasts_S1x1600000_S1600000

/-- Row 1 of the edge list as a vector: the node each edge enters. -/
def dstOf (E : IVec S2x1600000 32) : IVec S1600000 32 :=
  shapeCast S1600000 (extractStridedSlice S1x1600000 ![1, 0] E slices_S2x1600000_S1x1600000_1_0) shapeCasts_S1x1600000_S1600000

/-- The in-degree of each node: one added per edge at the node the edge enters. -/
def degOf (dv : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dv)
    (broadcastInDim S1600000 ![] bcast_S_S1600000 (constant (F := Ideal) S_ .f32 0x3F800000#32))

/-- The degree clamped at one from below. -/
def clampOf (one : FVec Ideal S_ .f32) (dg : FVec Ideal S100000 .f32) :
    FVec Ideal S100000 .f32 :=
  maximumf (F := Ideal) (broadcastInDim S100000 ![] bcast_S_S100000 (id one)) dg

/-- One over the clamped degree. -/
def invOf (cl : FVec Ideal S100000 .f32) : FVec Ideal S100000 .f32 :=
  Host.divf (broadcastInDim S100000 ![] bcast_S_S100000 (constant (F := Ideal) S_ .f32 0x3F800000#32)) cl

/-- One over the clamped in-degree, from the destination row. -/
def degInvOf (dv : IVec S1600000 32) : FVec Ideal S100000 .f32 :=
  invOf (clampOf (constant (F := Ideal) S_ .f32 0x3F800000#32) (degOf dv))

/-- The mean over incoming edges: for each edge the source node's feature row (a negative source index taken from the end)
    is added into the destination node's row, and each row is then scaled by the node's inverse clamped in-degree. -/
def aggrOf (sv dv : IVec S1600000 32) (di : FVec Ideal S100000 .f32)
    (f : FVec Ideal S100000x64 .f32) : FVec Ideal S100000x64 .f32 :=
  mulf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dv)
      (Host.gather gather_S100000x64_S1600000x1_S1600000x64_1_0_n_n_0_1_164 f
        (broadcastInDim S1600000x1 ![0] bcast_S1600000_S1600000x1_0
          (select (cmpi .slt sv (broadcastInDim S1600000 ![] bcast_S_S1600000 (constantI S_ 32 0#32)))
            (addi sv (broadcastInDim S1600000 ![] bcast_S_S1600000 (constantI S_ 32 100000#32))) sv))))
    (broadcastInDim S100000x64 ![0, 1] bcast_S100000x1_S100000x64_0_1 (broadcastInDim S100000x1 ![0] bcast_S100000_S100000x1_0 di))

variable (W : Valuation τ sig (Elt Ideal))

/-! ## The first stretch: the edge list's rows and the in-degrees -/

theorem rd0_v1 : after (hostOps0 (F := Ideal)) W (Proc.devRef .tc main_v1) = srcOf (W (Proc.devRef .tc main_arg1)) := by
  unfold srcOf; after_results_simp <;> rfl
theorem rd0_v3 : after (hostOps0 (F := Ideal)) W (Proc.devRef .tc main_v3) = dstOf (W (Proc.devRef .tc main_arg1)) := by
  unfold dstOf; after_results_simp <;> rfl
theorem rd0_v7 : after (hostOps0 (F := Ideal)) W (Proc.devRef .tc main_v7) = degOf (dstOf (W (Proc.devRef .tc main_arg1))) := by
  unfold degOf dstOf; after_results_simp <;> rfl
theorem rd0_cst_1 : after (hostOps0 (F := Ideal)) W (Proc.devRef .tc main_cst_1) = constant (F := Ideal) S_ .f32 0x3F800000#32 := by
  after_results_simp <;> rfl

/-! ## The clamp -/

theorem rd01_v8 : after (hostOps0_1 (F := Ideal)) W (Proc.devRef .tc main_v8)
    = clampOf (W (Proc.devRef .tc main_cst_1)) (W (Proc.devRef .tc main_v7)) := by
  unfold clampOf; after_results_simp <;> rfl

/-! ## The reciprocal, the first aggregation, the first bias as a row -/

theorem rd02_v10 : after (hostOps0_2 (F := Ideal)) W (Proc.devRef .tc main_v10) = invOf (W (Proc.devRef .tc main_v8)) := by
  unfold invOf; after_results_simp <;> rfl
theorem rd02_v23 : after (hostOps0_2 (F := Ideal)) W (Proc.devRef .tc main_v23)
    = aggrOf (W (Proc.devRef .tc main_v1)) (W (Proc.devRef .tc main_v3)) (invOf (W (Proc.devRef .tc main_v8))) (W (Proc.devRef .tc main_arg0)) := by
  unfold aggrOf invOf; after_results_simp <;> rfl
theorem rd02_v24 : after (hostOps0_2 (F := Ideal)) W (Proc.devRef .tc main_v24)
    = shapeCast S1x64 (W (Proc.devRef .tc main_arg3)) shapeCasts_S64_S1x64 := by
  after_results_simp <;> rfl

/-! ## The second aggregation, the second bias as a row -/

theorem rd1_v38 : after (hostOps1 (F := Ideal)) W (Proc.devRef .tc main_v38)
    = aggrOf (W (Proc.devRef .tc main_v1)) (W (Proc.devRef .tc main_v3)) (W (Proc.devRef .tc main_v10)) (W (Proc.devRef .tc main_v25)) := by
  unfold aggrOf; after_results_simp <;> rfl
theorem rd1_v39 : after (hostOps1 (F := Ideal)) W (Proc.devRef .tc main_v39)
    = shapeCast S1x64 (W (Proc.devRef .tc main_arg6)) shapeCasts_S64_S1x64 := by
  after_results_simp <;> rfl

/-! ## The third aggregation, the third bias as a row -/

theorem rd2_v53 : after (hostOps2 (F := Ideal)) W (Proc.devRef .tc main_v53)
    = aggrOf (W (Proc.devRef .tc main_v1)) (W (Proc.devRef .tc main_v3)) (W (Proc.devRef .tc main_v10)) (W (Proc.devRef .tc main_v40)) := by
  unfold aggrOf; after_results_simp <;> rfl
theorem rd2_v54 : after (hostOps2 (F := Ideal)) W (Proc.devRef .tc main_v54)
    = shapeCast S1x10 (W (Proc.devRef .tc main_arg9)) shapeCasts_S10_S1x10 := by
  after_results_simp <;> rfl

end Cert.KernelIdeal.HostV

end
-- ==== Proof.HostKCarry.lean ====
/-
  Buffers that a stretch of host operations does not write keep their contents.

  For each stretch of the idealized kernel's program and each buffer that is read after it but written by none of its
  operations: the buffer holds after the stretch what it held before, whatever that was.
-/
import proofs.«102765_j20968030339123_1_alg».proof.Proof.Gen.KernelIdeal.Launch
import Idealize.ShloMosaic.Lib.StableHlo.Run
import Idealize.ShloMosaic.PureOps.Ideal

set_option maxRecDepth 16384
set_option maxHeartbeats 2000000

noncomputable section

namespace Cert.KernelIdeal.HostV

open Cert.KernelIdeal Cert.KernelIdeal.Gen
open Idealize.ShloMosaic Idealize.ShloMosaic.TcCoe Idealize.SL.Sem Idealize.ShloMosaic.StableHlo

variable (W : Valuation τ sig (Elt Ideal))

/-! ## `hostOps0` -/

theorem carry_hostOps0_arg0 : after (hostOps0 (F := Ideal)) W (Proc.devRef .tc main_arg0) = W (Proc.devRef .tc main_arg0) := by
  after_results_simp <;> rfl
theorem carry_hostOps0_arg2 : after (hostOps0 (F := Ideal)) W (Proc.devRef .tc main_arg2) = W (Proc.devRef .tc main_arg2) := by
  after_results_simp <;> rfl
theorem carry_hostOps0_arg3 : after (hostOps0 (F := Ideal)) W (Proc.devRef .tc main_arg3) = W (Proc.devRef .tc main_arg3) := by
  after_results_simp <;> rfl
theorem carry_hostOps0_arg4 : after (hostOps0 (F := Ideal)) W (Proc.devRef .tc main_arg4) = W (Proc.devRef .tc main_arg4) := by
  after_results_simp <;> rfl
theorem carry_hostOps0_arg5 : after (hostOps0 (F := Ideal)) W (Proc.devRef .tc main_arg5) = W (Proc.devRef .tc main_arg5) := by
  after_results_simp <;> rfl
theorem carry_hostOps0_arg6 : after (hostOps0 (F := Ideal)) W (Proc.devRef .tc main_arg6) = W (Proc.devRef .tc main_arg6) := by
  after_results_simp <;> rfl
theorem carry_hostOps0_arg7 : after (hostOps0 (F := Ideal)) W (Proc.devRef .tc main_arg7) = W (Proc.devRef .tc main_arg7) := by
  after_results_simp <;> rfl
theorem carry_hostOps0_arg8 : after (hostOps0 (F := Ideal)) W (Proc.devRef .tc main_arg8) = W (Proc.devRef .tc main_arg8) := by
  after_results_simp <;> rfl
theorem carry_hostOps0_arg9 : after (hostOps0 (F := Ideal)) W (Proc.devRef .tc main_arg9) = W (Proc.devRef .tc main_arg9) := by
  after_results_simp <;> rfl
theorem carry_hostOps0_arg10 : after (hostOps0 (F := Ideal)) W (Proc.devRef .tc main_arg10) = W (Proc.devRef .tc main_arg10) := by
  after_results_simp <;> rfl

/-! ## `hostOps0_1` -/

theorem carry_hostOps0_1_v1 : after (hostOps0_1 (F := Ideal)) W (Proc.devRef .tc main_v1) = W (Proc.devRef .tc main_v1) := by
  after_results_simp <;> rfl
theorem carry_hostOps0_1_v3 : after (hostOps0_1 (F := Ideal)) W (Proc.devRef .tc main_v3) = W (Proc.devRef .tc main_v3) := by
  after_results_simp <;> rfl
theorem carry_hostOps0_1_arg0 : after (hostOps0_1 (F := Ideal)) W (Proc.devRef .tc main_arg0) = W (Proc.devRef .tc main_arg0) := by
  after_results_simp <;> rfl
theorem carry_hostOps0_1_arg2 : after (hostOps0_1 (F := Ideal)) W (Proc.devRef .tc main_arg2) = W (Proc.devRef .tc main_arg2) := by
  after_results_simp <;> rfl
theorem carry_hostOps0_1_arg3 : after (hostOps0_1 (F := Ideal)) W (Proc.devRef .tc main_arg3) = W (Proc.devRef .tc main_arg3) := by
  after_results_simp <;> rfl
theorem carry_hostOps0_1_arg4 : after (hostOps0_1 (F := Ideal)) W (Proc.devRef .tc main_arg4) = W (Proc.devRef .tc main_arg4) := by
  after_results_simp <;> rfl
theorem carry_hostOps0_1_arg5 : after (hostOps0_1 (F := Ideal)) W (Proc.devRef .tc main_arg5) = W (Proc.devRef .tc main_arg5) := by
  after_results_simp <;> rfl
theorem carry_hostOps0_1_arg6 : after (hostOps0_1 (F := Ideal)) W (Proc.devRef .tc main_arg6) = W (Proc.devRef .tc main_arg6) := by
  after_results_simp <;> rfl
theorem carry_hostOps0_1_arg7 : after (hostOps0_1 (F := Ideal)) W (Proc.devRef .tc main_arg7) = W (Proc.devRef .tc main_arg7) := by
  after_results_simp <;> rfl
theorem carry_hostOps0_1_arg8 : after (hostOps0_1 (F := Ideal)) W (Proc.devRef .tc main_arg8) = W (Proc.devRef .tc main_arg8) := by
  after_results_simp <;> rfl
theorem carry_hostOps0_1_arg9 : after (hostOps0_1 (F := Ideal)) W (Proc.devRef .tc main_arg9) = W (Proc.devRef .tc main_arg9) := by
  after_results_simp <;> rfl
theorem carry_hostOps0_1_arg10 : after (hostOps0_1 (F := Ideal)) W (Proc.devRef .tc main_arg10) = W (Proc.devRef .tc main_arg10) := by
  after_results_simp <;> rfl

/-! ## `hostOps0_2` -/

theorem carry_hostOps0_2_v1 : after (hostOps0_2 (F := Ideal)) W (Proc.devRef .tc main_v1) = W (Proc.devRef .tc main_v1) := by
  after_results_simp <;> rfl
theorem carry_hostOps0_2_v3 : after (hostOps0_2 (F := Ideal)) W (Proc.devRef .tc main_v3) = W (Proc.devRef .tc main_v3) := by
  after_results_simp <;> rfl
theorem carry_hostOps0_2_arg0 : after (hostOps0_2 (F := Ideal)) W (Proc.devRef .tc main_arg0) = W (Proc.devRef .tc main_arg0) := by
  after_results_simp <;> rfl
theorem carry_hostOps0_2_arg2 : after (hostOps0_2 (F := Ideal)) W (Proc.devRef .tc main_arg2) = W (Proc.devRef .tc main_arg2) := by
  after_results_simp <;> rfl
theorem carry_hostOps0_2_arg4 : after (hostOps0_2 (F := Ideal)) W (Proc.devRef .tc main_arg4) = W (Proc.devRef .tc main_arg4) := by
  after_results_simp <;> rfl
theorem carry_hostOps0_2_arg5 : after (hostOps0_2 (F := Ideal)) W (Proc.devRef .tc main_arg5) = W (Proc.devRef .tc main_arg5) := by
  after_results_simp <;> rfl
theorem carry_hostOps0_2_arg6 : after (hostOps0_2 (F := Ideal)) W (Proc.devRef .tc main_arg6) = W (Proc.devRef .tc main_arg6) := by
  after_results_simp <;> rfl
theorem carry_hostOps0_2_arg7 : after (hostOps0_2 (F := Ideal)) W (Proc.devRef .tc main_arg7) = W (Proc.devRef .tc main_arg7) := by
  after_results_simp <;> rfl
theorem carry_hostOps0_2_arg8 : after (hostOps0_2 (F := Ideal)) W (Proc.devRef .tc main_arg8) = W (Proc.devRef .tc main_arg8) := by
  after_results_simp <;> rfl
theorem carry_hostOps0_2_arg9 : after (hostOps0_2 (F := Ideal)) W (Proc.devRef .tc main_arg9) = W (Proc.devRef .tc main_arg9) := by
  after_results_simp <;> rfl
theorem carry_hostOps0_2_arg10 : after (hostOps0_2 (F := Ideal)) W (Proc.devRef .tc main_arg10) = W (Proc.devRef .tc main_arg10) := by
  after_results_simp <;> rfl

/-! ## `hostOps1` -/

theorem carry_hostOps1_v1 : after (hostOps1 (F := Ideal)) W (Proc.devRef .tc main_v1) = W (Proc.devRef .tc main_v1) := by
  after_results_simp <;> rfl
theorem carry_hostOps1_v3 : after (hostOps1 (F := Ideal)) W (Proc.devRef .tc main_v3) = W (Proc.devRef .tc main_v3) := by
  after_results_simp <;> rfl
theorem carry_hostOps1_v10 : after (hostOps1 (F := Ideal)) W (Proc.devRef .tc main_v10) = W (Proc.devRef .tc main_v10) := by
  after_results_simp <;> rfl
theorem carry_hostOps1_v25 : after (hostOps1 (F := Ideal)) W (Proc.devRef .tc main_v25) = W (Proc.devRef .tc main_v25) := by
  after_results_simp <;> rfl
theorem carry_hostOps1_arg5 : after (hostOps1 (F := Ideal)) W (Proc.devRef .tc main_arg5) = W (Proc.devRef .tc main_arg5) := by
  after_results_simp <;> rfl
theorem carry_hostOps1_arg6 : after (hostOps1 (F := Ideal)) W (Proc.devRef .tc main_arg6) = W (Proc.devRef .tc main_arg6) := by
  after_results_simp <;> rfl
theorem carry_hostOps1_arg7 : after (hostOps1 (F := Ideal)) W (Proc.devRef .tc main_arg7) = W (Proc.devRef .tc main_arg7) := by
  after_results_simp <;> rfl
theorem carry_hostOps1_arg8 : after (hostOps1 (F := Ideal)) W (Proc.devRef .tc main_arg8) = W (Proc.devRef .tc main_arg8) := by
  after_results_simp <;> rfl
theorem carry_hostOps1_arg9 : after (hostOps1 (F := Ideal)) W (Proc.devRef .tc main_arg9) = W (Proc.devRef .tc main_arg9) := by
  after_results_simp <;> rfl
theorem carry_hostOps1_arg10 : after (hostOps1 (F := Ideal)) W (Proc.devRef .tc main_arg10) = W (Proc.devRef .tc main_arg10) := by
  after_results_simp <;> rfl

/-! ## `hostOps2` -/

theorem carry_hostOps2_v40 : after (hostOps2 (F := Ideal)) W (Proc.devRef .tc main_v40) = W (Proc.devRef .tc main_v40) := by
  after_results_simp <;> rfl
theorem carry_hostOps2_arg8 : after (hostOps2 (F := Ideal)) W (Proc.devRef .tc main_arg8) = W (Proc.devRef .tc main_arg8) := by
  after_results_simp <;> rfl
theorem carry_hostOps2_arg9 : after (hostOps2 (F := Ideal)) W (Proc.devRef .tc main_arg9) = W (Proc.devRef .tc main_arg9) := by
  after_results_simp <;> rfl
theorem carry_hostOps2_arg10 : after (hostOps2 (F := Ideal)) W (Proc.devRef .tc main_arg10) = W (Proc.devRef .tc main_arg10) := by
  after_results_simp <;> rfl

end Cert.KernelIdeal.HostV

end
-- ==== Proof.KernelValue.lean ====
/-
  The idealized kernel's result, as a function of the arguments.

  The run's buffer contents are followed from boundary to boundary: before the first launch the source and destination
  rows, the inverse clamped in-degrees and the first aggregation are functions of the edge list and the features; each launch
  leaves the dense layer of the arrays it finds and touches nothing else that is read later; each stretch of host operations
  between launches aggregates the previous layer's output and turns the next bias into a row. No buffer that is read
  later is written in between. Composed, the result is the three-layer network of the eleven arguments.
-/
import proofs.«102765_j20968030339123_1_alg».proof.Proof.Gen.KernelIdeal.Frame
import proofs.«102765_j20968030339123_1_alg».proof.Proof.RegionValue
import proofs.«102765_j20968030339123_1_alg».proof.Proof.HostK
import proofs.«102765_j20968030339123_1_alg».proof.Proof.HostKCarry
import proofs.«102765_j20968030339123_1_alg».proof.Proof.LayerSpec
import Idealize.ShloMosaic.Lib.Pipeline.Value
import Idealize.ShloMosaic.Lib.ValueIdx

set_option maxRecDepth 16384
set_option maxHeartbeats 2000000

noncomputable section

namespace Cert.KernelIdeal.KV

open Cert.KernelIdeal Cert.KernelIdeal.Gen Cert.KernelIdeal.HostV Cert.KernelIdeal.RegionV Cert.Gcn
open Idealize.ShloMosaic Idealize.ShloMosaic.TcCoe Idealize.ShloMosaic.ValueIdx Idealize.SL.Sem Idealize.ShloMosaic.StableHlo

/-- One hidden layer: the clamp at zero of the affine layer of the aggregated features and the features. -/
def hiddenOf (E : IVec S2x1600000 32) (f : FVec Ideal S100000x64 .f32)
    (Wo : FVec Ideal S64x64 .f32) (b : FVec Ideal S64 .f32)
    (Wr : FVec Ideal S64x64 .f32) : FVec Ideal S100000x64 .f32 :=
  reluOf (preLayer (aggrOf (srcOf E) (dstOf E) (degInvOf (dstOf E)) f) f Wo Wr (fun q => b (ix1 q)))

/-- The whole network: two hidden layers, then the affine layer of width ten and the row-wise log-softmax. -/
def outOf (x : FVec Ideal S100000x64 .f32) (E : IVec S2x1600000 32)
    (W0 : FVec Ideal S64x64 .f32) (b0 : FVec Ideal S64 .f32) (Wr0 : FVec Ideal S64x64 .f32)
    (W1 : FVec Ideal S64x64 .f32) (b1 : FVec Ideal S64 .f32) (Wr1 : FVec Ideal S64x64 .f32)
    (W2 : FVec Ideal S64x10 .f32) (b2 : FVec Ideal S10 .f32) (Wr2 : FVec Ideal S64x10 .f32) :
    FVec Ideal S100000x10 .f32 :=
  lsmOf (preLayer (aggrOf (srcOf E) (dstOf E) (degInvOf (dstOf E)) (hiddenOf E (hiddenOf E x W0 b0 Wr0) W1 b1 Wr1))
    (hiddenOf E (hiddenOf E x W0 b0 Wr0) W1 b1 Wr1) W2 Wr2 (fun q => b2 (ix1 q)))

/-! ## Congruences and the bias as a row -/

theorem aggr_congr {sv sv' dv dv' : IVec S1600000 32} {di di' : FVec Ideal S100000 .f32} {f f' : FVec Ideal S100000x64 .f32}
    (h1 : sv = sv') (h3 : dv = dv') (h10 : di = di') (hf : f = f') : aggrOf sv dv di f = aggrOf sv' dv' di' f' := by
  subst h1 h3 h10 hf; rfl

/-- A vector of length `e` cast to the one-row matrix `[1, e]` reads, at `(0, q)`, the vector at `q`. -/
theorem bias_row {α : Type} {e : ℕ} (b : (⟨1, ![e]⟩ : Shape).Idx → α) (h : (⟨1, ![e]⟩ : Shape).ShapeCasts ⟨2, ![1, e]⟩)
    (q : Fin e) : shapeCast ⟨2, ![1, e]⟩ b h (ix2 (0 : Fin 1) q) = b (ix1 q) :=
  shapeCast_apply b h _ _ (by
    rw [Shape.rowMajor_val_two, Shape.rowMajor_val_one]
    show q.val = 0 * e + q.val
    rw [Nat.zero_mul, Nat.zero_add])

section Launches

variable (V : (c : Dev nD) → (b : Ref sig .tc) → Buf (Elt Ideal) ((c : Thread nD τ).loc b)) (c : Dev nD)

/-- The first launch's layer, once the arrays it finds are known. -/
theorem layer0_of {A X : FVec Ideal S100000x64 .f32} {Wo Wr : FVec Ideal S64x64 .f32} {b : FVec Ideal S64 .f32}
    (hA : V c main_v23 = A) (hX : V c main_arg0 = X) (hW : V c main_arg2 = Wo) (hWr : V c main_arg4 = Wr)
    (hB : V c main_v24 = shapeCast S1x64 b shapeCasts_S64_S1x64) :
    layer0 V c = reluOf (preLayer A X Wo Wr (fun q => b (ix1 q))) := by
  subst hA hX hW hWr
  have hb : (fun q : Fin 64 => V c main_v24 (ix2 (0 : Fin 1) q)) = fun q => b (ix1 q) :=
    funext fun q => by rw [hB]; exact bias_row b _ q
  show reluOf (preLayer _ _ _ _ (fun q : Fin 64 => V c main_v24 (ix2 (0 : Fin 1) q))) = _
  rw [hb]

/-- The second launch's layer, once the arrays it finds are known. -/
theorem layer1_of {A X : FVec Ideal S100000x64 .f32} {Wo Wr : FVec Ideal S64x64 .f32} {b : FVec Ideal S64 .f32}
    (hA : V c main_v38 = A) (hX : V c main_v25 = X) (hW : V c main_arg5 = Wo) (hWr : V c main_arg7 = Wr)
    (hB : V c main_v39 = shapeCast S1x64 b shapeCasts_S64_S1x64) :
    layer1 V c = reluOf (preLayer A X Wo Wr (fun q => b (ix1 q))) := by
  subst hA hX hW hWr
  have hb : (fun q : Fin 64 => V c main_v39 (ix2 (0 : Fin 1) q)) = fun q => b (ix1 q) :=
    funext fun q => by rw [hB]; exact bias_row b _ q
  show reluOf (preLayer _ _ _ _ (fun q : Fin 64 => V c main_v39 (ix2 (0 : Fin 1) q))) = _
  rw [hb]

/-- The third launch's layer, once the arrays it finds are known. -/
theorem layer2_of {A X : FVec Ideal S100000x64 .f32} {Wo Wr : FVec Ideal S64x10 .f32} {b : FVec Ideal S10 .f32}
    (hA : V c main_v53 = A) (hX : V c main_v40 = X) (hW : V c main_arg8 = Wo) (hWr : V c main_arg10 = Wr)
    (hB : V c main_v54 = shapeCast S1x10 b shapeCasts_S10_S1x10) :
    layer2 V c = lsmOf (preLayer A X Wo Wr (fun q => b (ix1 q))) := by
  subst hA hX hW hWr
  have hb : (fun q : Fin 10 => V c main_v54 (ix2 (0 : Fin 1) q)) = fun q => b (ix1 q) :=
    funext fun q => by rw [hB]; exact bias_row b _ q
  show lsmOf (preLayer _ _ _ _ (fun q : Fin 10 => V c main_v54 (ix2 (0 : Fin 1) q))) = _
  rw [hb]

end Launches

variable (m : (ℓ : Loc nD τ sig) → Buf (Elt Ideal) ℓ) (ρ : Dev nD → PrngReg) (c : Dev nD)

/-! ## Before the first launch -/

/-- A buffer that none of the three stretches before the first launch writes holds its launch contents there. -/
theorem W3_kept (r : Ref sig .tc)
    (h0 : ∀ W : Valuation τ sig (Elt Ideal), after (hostOps0 (F := Ideal)) W (Proc.devRef .tc r) = W (Proc.devRef .tc r))
    (h1 : ∀ W : Valuation τ sig (Elt Ideal), after (hostOps0_1 (F := Ideal)) W (Proc.devRef .tc r) = W (Proc.devRef .tc r))
    (h2 : ∀ W : Valuation τ sig (Elt Ideal), after (hostOps0_2 (F := Ideal)) W (Proc.devRef .tc r) = W (Proc.devRef .tc r)) :
    W3 m ρ c (Proc.devRef .tc r) = m ((c : Thread nD τ).loc r) :=
  (h2 (W2 m ρ c)).trans ((h1 (W1 m ρ c)).trans (h0 (W0 m ρ c)))

theorem W3_arg0 : W3 m ρ c (Proc.devRef .tc main_arg0) = (m ((c : Thread nD τ).loc main_arg0)) :=
  W3_kept m ρ c main_arg0 carry_hostOps0_arg0 carry_hostOps0_1_arg0 carry_hostOps0_2_arg0
theorem W3_arg2 : W3 m ρ c (Proc.devRef .tc main_arg2) = (m ((c : Thread nD τ).loc main_arg2)) :=
  W3_kept m ρ c main_arg2 carry_hostOps0_arg2 carry_hostOps0_1_arg2 carry_hostOps0_2_arg2
theorem W3_arg4 : W3 m ρ c (Proc.devRef .tc main_arg4) = (m ((c : Thread nD τ).loc main_arg4)) :=
  W3_kept m ρ c main_arg4 carry_hostOps0_arg4 carry_hostOps0_1_arg4 carry_hostOps0_2_arg4
theorem W3_arg5 : W3 m ρ c (Proc.devRef .tc main_arg5) = (m ((c : Thread nD τ).loc main_arg5)) :=
  W3_kept m ρ c main_arg5 carry_hostOps0_arg5 carry_hostOps0_1_arg5 carry_hostOps0_2_arg5
theorem W3_arg6 : W3 m ρ c (Proc.devRef .tc main_arg6) = (m ((c : Thread nD τ).loc main_arg6)) :=
  W3_kept m ρ c main_arg6 carry_hostOps0_arg6 carry_hostOps0_1_arg6 carry_hostOps0_2_arg6
theorem W3_arg7 : W3 m ρ c (Proc.devRef .tc main_arg7) = (m ((c : Thread nD τ).loc main_arg7)) :=
  W3_kept m ρ c main_arg7 carry_hostOps0_arg7 carry_hostOps0_1_arg7 carry_hostOps0_2_arg7
theorem W3_arg8 : W3 m ρ c (Proc.devRef .tc main_arg8) = (m ((c : Thread nD τ).loc main_arg8)) :=
  W3_kept m ρ c main_arg8 carry_hostOps0_arg8 carry_hostOps0_1_arg8 carry_hostOps0_2_arg8
theorem W3_arg9 : W3 m ρ c (Proc.devRef .tc main_arg9) = (m ((c : Thread nD τ).loc main_arg9)) :=
  W3_kept m ρ c main_arg9 carry_hostOps0_arg9 carry_hostOps0_1_arg9 carry_hostOps0_2_arg9
theorem W3_arg10 : W3 m ρ c (Proc.devRef .tc main_arg10) = (m ((c : Thread nD τ).loc main_arg10)) :=
  W3_kept m ρ c main_arg10 carry_hostOps0_arg10 carry_hostOps0_1_arg10 carry_hostOps0_2_arg10

theorem W2_arg3 : W2 m ρ c (Proc.devRef .tc main_arg3) = (m ((c : Thread nD τ).loc main_arg3)) :=
  (carry_hostOps0_1_arg3 (W1 m ρ c)).trans (carry_hostOps0_arg3 (W0 m ρ c))
theorem W2_arg0 : W2 m ρ c (Proc.devRef .tc main_arg0) = (m ((c : Thread nD τ).loc main_arg0)) :=
  (carry_hostOps0_1_arg0 (W1 m ρ c)).trans (carry_hostOps0_arg0 (W0 m ρ c))
theorem W2_v1 : W2 m ρ c (Proc.devRef .tc main_v1) = (srcOf (m ((c : Thread nD τ).loc main_arg1))) :=
  (carry_hostOps0_1_v1 (W1 m ρ c)).trans (rd0_v1 (W0 m ρ c))
theorem W2_v3 : W2 m ρ c (Proc.devRef .tc main_v3) = (dstOf (m ((c : Thread nD τ).loc main_arg1))) :=
  (carry_hostOps0_1_v3 (W1 m ρ c)).trans (rd0_v3 (W0 m ρ c))
theorem W2_v8 : W2 m ρ c (Proc.devRef .tc main_v8) = clampOf (constant (F := Ideal) S_ .f32 0x3F800000#32) (degOf (dstOf (m ((c : Thread nD τ).loc main_arg1)))) :=
  (rd01_v8 (W1 m ρ c)).trans (congr (congrArg clampOf (rd0_cst_1 (W0 m ρ c))) (rd0_v7 (W0 m ρ c)))
theorem W3_v1 : W3 m ρ c (Proc.devRef .tc main_v1) = (srcOf (m ((c : Thread nD τ).loc main_arg1))) := (carry_hostOps0_2_v1 (W2 m ρ c)).trans (W2_v1 m ρ c)
theorem W3_v3 : W3 m ρ c (Proc.devRef .tc main_v3) = (dstOf (m ((c : Thread nD τ).loc main_arg1))) := (carry_hostOps0_2_v3 (W2 m ρ c)).trans (W2_v3 m ρ c)
theorem W3_v10 : W3 m ρ c (Proc.devRef .tc main_v10) = (degInvOf (dstOf (m ((c : Thread nD τ).loc main_arg1)))) :=
  (rd02_v10 (W2 m ρ c)).trans (congrArg invOf (W2_v8 m ρ c))
theorem W3_v23 : W3 m ρ c (Proc.devRef .tc main_v23) = aggrOf (srcOf (m ((c : Thread nD τ).loc main_arg1))) (dstOf (m ((c : Thread nD τ).loc main_arg1))) (degInvOf (dstOf (m ((c : Thread nD τ).loc main_arg1)))) (m ((c : Thread nD τ).loc main_arg0)) :=
  (rd02_v23 (W2 m ρ c)).trans (aggr_congr (W2_v1 m ρ c) (W2_v3 m ρ c) (congrArg invOf (W2_v8 m ρ c)) (W2_arg0 m ρ c))
theorem W3_v24 : W3 m ρ c (Proc.devRef .tc main_v24) = shapeCast S1x64 (m ((c : Thread nD τ).loc main_arg3)) shapeCasts_S64_S1x64 :=
  (rd02_v24 (W2 m ρ c)).trans (congrArg (fun b => shapeCast S1x64 b shapeCasts_S64_S1x64) (W2_arg3 m ρ c))

/-! ## The first launch and the stretch after it -/

theorem W4_v25 : W4 m ρ c (Proc.devRef .tc main_v25) = (hiddenOf (m ((c : Thread nD τ).loc main_arg1)) (m ((c : Thread nD τ).loc main_arg0)) (m ((c : Thread nD τ).loc main_arg2)) (m ((c : Thread nD τ).loc main_arg3)) (m ((c : Thread nD τ).loc main_arg4))) :=
  (W4_arr m ρ c 5).trans ((final0 (V3 m ρ) c).trans
    (layer0_of (V3 m ρ) c (W3_v23 m ρ c) (W3_arg0 m ρ c) (W3_arg2 m ρ c) (W3_arg4 m ρ c) (W3_v24 m ρ c)))
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_v10 : W4 m ρ c (Proc.devRef .tc main_v10) = W3 m ρ c (Proc.devRef .tc main_v10) := W4_of_ne m ρ c main_v10 (by decide)
theorem W4_arg5 : W4 m ρ c (Proc.devRef .tc main_arg5) = W3 m ρ c (Proc.devRef .tc main_arg5) := W4_of_ne m ρ c main_arg5 (by decide)
theorem W4_arg6 : W4 m ρ c (Proc.devRef .tc main_arg6) = W3 m ρ c (Proc.devRef .tc main_arg6) := W4_of_ne m ρ c main_arg6 (by decide)
theorem W4_arg7 : W4 m ρ c (Proc.devRef .tc main_arg7) = W3 m ρ c (Proc.devRef .tc main_arg7) := W4_of_ne m ρ c main_arg7 (by decide)
theorem W4_arg8 : W4 m ρ c (Proc.devRef .tc main_arg8) = W3 m ρ c (Proc.devRef .tc main_arg8) := W4_of_ne m ρ c main_arg8 (by decide)
theorem W4_arg9 : W4 m ρ c (Proc.devRef .tc main_arg9) = W3 m ρ c (Proc.devRef .tc main_arg9) := W4_of_ne m ρ c main_arg9 (by decide)
theorem W4_arg10 : W4 m ρ c (Proc.devRef .tc main_arg10) = W3 m ρ c (Proc.devRef .tc main_arg10) := W4_of_ne m ρ c main_arg10 (by decide)

theorem W5_v38 : W5 m ρ c (Proc.devRef .tc main_v38) = aggrOf (srcOf (m ((c : Thread nD τ).loc main_arg1))) (dstOf (m ((c : Thread nD τ).loc main_arg1))) (degInvOf (dstOf (m ((c : Thread nD τ).loc main_arg1)))) (hiddenOf (m ((c : Thread nD τ).loc main_arg1)) (m ((c : Thread nD τ).loc main_arg0)) (m ((c : Thread nD τ).loc main_arg2)) (m ((c : Thread nD τ).loc main_arg3)) (m ((c : Thread nD τ).loc main_arg4))) :=
  (rd1_v38 (W4 m ρ c)).trans (aggr_congr ((W4_v1 m ρ c).trans (W3_v1 m ρ c)) ((W4_v3 m ρ c).trans (W3_v3 m ρ c))
    ((W4_v10 m ρ c).trans (W3_v10 m ρ c)) (W4_v25 m ρ c))
theorem W5_v25 : W5 m ρ c (Proc.devRef .tc main_v25) = (hiddenOf (m ((c : Thread nD τ).loc main_arg1)) (m ((c : Thread nD τ).loc main_arg0)) (m ((c : Thread nD τ).loc main_arg2)) (m ((c : Thread nD τ).loc main_arg3)) (m ((c : Thread nD τ).loc main_arg4))) := (carry_hostOps1_v25 (W4 m ρ c)).trans (W4_v25 m ρ c)
theorem W5_v39 : W5 m ρ c (Proc.devRef .tc main_v39) = shapeCast S1x64 (m ((c : Thread nD τ).loc main_arg6)) shapeCasts_S64_S1x64 :=
  (rd1_v39 (W4 m ρ c)).trans (congrArg (fun b => shapeCast S1x64 b shapeCasts_S64_S1x64) ((W4_arg6 m ρ c).trans (W3_arg6 m ρ c)))
theorem W5_arg5 : W5 m ρ c (Proc.devRef .tc main_arg5) = (m ((c : Thread nD τ).loc main_arg5)) :=
  (carry_hostOps1_arg5 (W4 m ρ c)).trans ((W4_arg5 m ρ c).trans (W3_arg5 m ρ c))
theorem W5_arg7 : W5 m ρ c (Proc.devRef .tc main_arg7) = (m ((c : Thread nD τ).loc main_arg7)) :=
  (carry_hostOps1_arg7 (W4 m ρ c)).trans ((W4_arg7 m ρ c).trans (W3_arg7 m ρ c))
theorem W5_arg8 : W5 m ρ c (Proc.devRef .tc main_arg8) = (m ((c : Thread nD τ).loc main_arg8)) :=
  (carry_hostOps1_arg8 (W4 m ρ c)).trans ((W4_arg8 m ρ c).trans (W3_arg8 m ρ c))
theorem W5_arg9 : W5 m ρ c (Proc.devRef .tc main_arg9) = (m ((c : Thread nD τ).loc main_arg9)) :=
  (carry_hostOps1_arg9 (W4 m ρ c)).trans ((W4_arg9 m ρ c).trans (W3_arg9 m ρ c))
theorem W5_arg10 : W5 m ρ c (Proc.devRef .tc main_arg10) = (m ((c : Thread nD τ).loc main_arg10)) :=
  (carry_hostOps1_arg10 (W4 m ρ c)).trans ((W4_arg10 m ρ c).trans (W3_arg10 m ρ c))
theorem W5_v1 : W5 m ρ c (Proc.devRef .tc main_v1) = (srcOf (m ((c : Thread nD τ).loc main_arg1))) := (carry_hostOps1_v1 (W4 m ρ c)).trans ((W4_v1 m ρ c).trans (W3_v1 m ρ c))
theorem W5_v3 : W5 m ρ c (Proc.devRef .tc main_v3) = (dstOf (m ((c : Thread nD τ).loc main_arg1))) := (carry_hostOps1_v3 (W4 m ρ c)).trans ((W4_v3 m ρ c).trans (W3_v3 m ρ c))
theorem W5_v10 : W5 m ρ c (Proc.devRef .tc main_v10) = (degInvOf (dstOf (m ((c : Thread nD τ).loc main_arg1)))) := (carry_hostOps1_v10 (W4 m ρ c)).trans ((W4_v10 m ρ c).trans (W3_v10 m ρ c))

/-! ## The second launch and the stretch after it -/

theorem W6_v40 : W6 m ρ c (Proc.devRef .tc main_v40) = (hiddenOf (m ((c : Thread nD τ).loc main_arg1)) (hiddenOf (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (W6_arr m ρ c 5).trans ((final1 (V5 m ρ) c).trans
    (layer1_of (V5 m ρ) c (W5_v38 m ρ c) (W5_v25 m ρ c) (W5_arg5 m ρ c) (W5_arg7 m ρ c) (W5_v39 m ρ c)))
theorem W6_v1 : W6 m ρ c (Proc.devRef .tc main_v1) = W5 m ρ c (Proc.devRef .tc main_v1) := W6_of_ne m ρ c main_v1 (by decide)
theorem W6_v3 : W6 m ρ c (Proc.devRef .tc main_v3) = W5 m ρ c (Proc.devRef .tc main_v3) := W6_of_ne m ρ c main_v3 (by decide)
theorem W6_v10 : W6 m ρ c (Proc.devRef .tc main_v10) = W5 m ρ c (Proc.devRef .tc main_v10) := W6_of_ne m ρ c main_v10 (by decide)
theorem W6_arg8 : W6 m ρ c (Proc.devRef .tc main_arg8) = W5 m ρ c (Proc.devRef .tc main_arg8) := W6_of_ne m ρ c main_arg8 (by decide)
theorem W6_arg9 : W6 m ρ c (Proc.devRef .tc main_arg9) = W5 m ρ c (Proc.devRef .tc main_arg9) := W6_of_ne m ρ c main_arg9 (by decide)
theorem W6_arg10 : W6 m ρ c (Proc.devRef .tc main_arg10) = W5 m ρ c (Proc.devRef .tc main_arg10) := W6_of_ne m ρ c main_arg10 (by decide)

theorem W7_v53 : W7 m ρ c (Proc.devRef .tc main_v53) = aggrOf (srcOf (m ((c : Thread nD τ).loc main_arg1))) (dstOf (m ((c : Thread nD τ).loc main_arg1))) (degInvOf (dstOf (m ((c : Thread nD τ).loc main_arg1)))) (hiddenOf (m ((c : Thread nD τ).loc main_arg1)) (hiddenOf (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (rd2_v53 (W6 m ρ c)).trans (aggr_congr ((W6_v1 m ρ c).trans (W5_v1 m ρ c)) ((W6_v3 m ρ c).trans (W5_v3 m ρ c))
    ((W6_v10 m ρ c).trans (W5_v10 m ρ c)) (W6_v40 m ρ c))
theorem W7_v40 : W7 m ρ c (Proc.devRef .tc main_v40) = (hiddenOf (m ((c : Thread nD τ).loc main_arg1)) (hiddenOf (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (carry_hostOps2_v40 (W6 m ρ c)).trans (W6_v40 m ρ c)
theorem W7_v54 : W7 m ρ c (Proc.devRef .tc main_v54) = shapeCast S1x10 (m ((c : Thread nD τ).loc main_arg9)) shapeCasts_S10_S1x10 :=
  (rd2_v54 (W6 m ρ c)).trans (congrArg (fun b => shapeCast S1x10 b shapeCasts_S10_S1x10) ((W6_arg9 m ρ c).trans (W5_arg9 m ρ c)))
theorem W7_arg8 : W7 m ρ c (Proc.devRef .tc main_arg8) = (m ((c : Thread nD τ).loc main_arg8)) := (carry_hostOps2_arg8 (W6 m ρ c)).trans ((W6_arg8 m ρ c).trans (W5_arg8 m ρ c))
theorem W7_arg10 : W7 m ρ c (Proc.devRef .tc main_arg10) = (m ((c : Thread nD τ).loc main_arg10)) := (carry_hostOps2_arg10 (W6 m ρ c)).trans ((W6_arg10 m ρ c).trans (W5_arg10 m ρ c))

/-! ## The third launch: the result -/

/-- The result buffer ends at the network of the eleven arguments. -/
theorem kernel_value : W8 m ρ c (Proc.devRef .tc main_v55)
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 5).trans ((final2 (V7 m ρ) c).trans
    (layer2_of (V7 m ρ) c (W7_v53 m ρ c) (W7_v40 m ρ c) (W7_arg8 m ρ c) (W7_arg10 m ρ c) (W7_v54 m ρ c)))

end Cert.KernelIdeal.KV

end
-- ==== Proof.RefDefs.lean ====
/-
  The pieces of the reference program that feed its dense layers, named.

  From the edge list: the source and destination rows, each node's in-degree clamped at one and its reciprocal, and the mean
  of a feature array over incoming edges. Then one hidden layer and the whole network as functions of the arguments.
-/
import proofs.«102765_j20968030339123_1_alg».proof.Proof.RefRun
import proofs.«102765_j20968030339123_1_alg».proof.Proof.LayerSpec
import Idealize.ShloMosaic.PureOps.Ideal
import Idealize.ShloMosaic.Lib.ValueIdx

set_option maxRecDepth 16384

noncomputable section

namespace Cert.ReferenceIdeal.RefV

open Cert.ReferenceIdeal Cert.ReferenceIdeal.Gen Cert.Gcn
open Idealize.ShloMosaic Idealize.ShloMosaic.TcCoe Idealize.ShloMosaic.ValueIdx Idealize.SL.Sem Idealize.ShloMosaic.StableHlo

/-- Row 0 of the edge list as a vector: the node each edge leaves. -/
def srcOf (E : IVec S2x1600000 32) : IVec S1600000 32 :=
  shapeCast S1600000 (extractStridedSlice S1x1600000 ![0, 0] E slices_S2x1600000_S1x1600000_0_0) shapeCasts_S1x1600000_S1600000

/-- Row 1 of the edge list as a vector: the node each edge enters. -/
def dstOf (E : IVec S2x1600000 32) : IVec S1600000 32 :=
  shapeCast S1600000 (extractStridedSlice S1x1600000 ![1, 0] E slices_S2x1600000_S1x1600000_1_0) shapeCasts_S1x1600000_S1600000

/-- The in-degree of each node: one added per edge at the node the edge enters. -/
def degOf (dv : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dv)
    (broadcastInDim S1600000 ![] bcast_S_S1600000 (constant (F := Ideal) S_ .f32 0x3F800000#32))

/-- The degree clamped at one from below. -/
def clampOf (one : FVec Ideal S_ .f32) (dg : FVec Ideal S100000 .f32) :
    FVec Ideal S100000 .f32 :=
  maximumf (F := Ideal) (broadcastInDim S100000 ![] bcast_S_S100000 (id one)) dg

/-- One over the clamped degree. -/
def invOf (cl : FVec Ideal S100000 .f32) : FVec Ideal S100000 .f32 :=
  Host.divf (broadcastInDim S100000 ![] bcast_S_S100000 (constant (F := Ideal) S_ .f32 0x3F800000#32)) cl

/-- One over the clamped in-degree, from the destination row. -/
def degInvOf (dv : IVec S1600000 32) : FVec Ideal S100000 .f32 :=
  invOf (clampOf (constant (F := Ideal) S_ .f32 0x3F800000#32) (degOf dv))

/-- The mean over incoming edges: for each edge the source node's feature row (a negative source index taken from the end)
    is added into the destination node's row, and each row is then scaled by the node's inverse clamped in-degree. -/
def aggrOf (sv dv : IVec S1600000 32) (di : FVec Ideal S100000 .f32)
    (f : FVec Ideal S100000x64 .f32) : FVec Ideal S100000x64 .f32 :=
  mulf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dv)
      (Host.gather gather_S100000x64_S1600000x1_S1600000x64_1_0_n_n_0_1_164 f
        (broadcastInDim S1600000x1 ![0] bcast_S1600000_S1600000x1_0
          (select (cmpi .slt sv (broadcastInDim S1600000 ![] bcast_S_S1600000 (constantI S_ 32 0#32)))
            (addi sv (broadcastInDim S1600000 ![] bcast_S_S1600000 (constantI S_ 32 100000#32))) sv))))
    (broadcastInDim S100000x64 ![0, 1] bcast_S100000x1_S100000x64_0_1 (broadcastInDim S100000x1 ![0] bcast_S100000_S100000x1_0 di))

/-- One hidden layer: the clamp at zero of the affine layer of the aggregated features and the features. -/
def hiddenOf (E : IVec S2x1600000 32) (f : FVec Ideal S100000x64 .f32)
    (Wo : FVec Ideal S64x64 .f32) (b : FVec Ideal S64 .f32)
    (Wr : FVec Ideal S64x64 .f32) : FVec Ideal S100000x64 .f32 :=
  reluOf (preLayer (aggrOf (srcOf E) (dstOf E) (degInvOf (dstOf E)) f) f Wo Wr (fun q => b (ix1 q)))

/-- The whole network: two hidden layers, then the affine layer of width ten and the row-wise log-softmax. -/
def outOf (x : FVec Ideal S100000x64 .f32) (E : IVec S2x1600000 32)
    (W0 : FVec Ideal S64x64 .f32) (b0 : FVec Ideal S64 .f32) (Wr0 : FVec Ideal S64x64 .f32)
    (W1 : FVec Ideal S64x64 .f32) (b1 : FVec Ideal S64 .f32) (Wr1 : FVec Ideal S64x64 .f32)
    (W2 : FVec Ideal S64x10 .f32) (b2 : FVec Ideal S10 .f32) (Wr2 : FVec Ideal S64x10 .f32) :
    FVec Ideal S100000x10 .f32 :=
  lsmOf (preLayer (aggrOf (srcOf E) (dstOf E) (degInvOf (dstOf E)) (hiddenOf E (hiddenOf E x W0 b0 Wr0) W1 b1 Wr1))
    (hiddenOf E (hiddenOf E x W0 b0 Wr0) W1 b1 Wr1) W2 Wr2 (fun q => b2 (ix1 q)))

end Cert.ReferenceIdeal.RefV

end
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.LayerHost.lean ====
/-
  One layer of the graph convolution, written with the operations of the array program, is the layer's specification.

  Three statements, for arbitrary extents, over the extended reals.

  * The affine part.  The product of `A` and `W`, plus the bias `b` laid along a row `[1, e]` and repeated down the
    `a` rows, plus the product of `X` and `Wr`, is at entry `(p, q)`
    `(∑ k, A (p, k) * W (k, q)) + (∑ k, X (p, k) * Wr (k, q)) + b q`:
    the two sums are read off the products, the repeated bias reads `b q` in every row, and the three summands are
    re-associated (addition on the extended reals is commutative and associative; nothing needs to be finite).

  * The clamp.  The entrywise maximum of an array with the zero pattern repeated over the whole shape is the array clamped at
    that pattern from below.

  * The normalisation.  Take each row's maximum from the pattern of `-∞`, and once more against that pattern; lay it along a
    column and repeat it across the row; subtract; exponentiate; sum each row from the zero pattern; lay the sums along a
    column, take logarithms, repeat across the row; subtract from the first difference.  Entry `(p, q)` is
    `(H (p, q) - m p) - log (∑ r, exp (H (p, r) - m p))` with `m p` the row maximum just described.  A row's maximum over one
    axis is a fold of `max` over that row's entries, the row sum from the zero pattern is `0 +` the sum, and a column
    repeated across a row reads the column's entry in every position.
-/
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import Idealize.ShloMosaic.Lib.ValueLayout
import proofs.«102765_j20968030339123_1_alg».proof.Proof.LayerSpec
import proofs.«102765_j20968030339123_1_alg».proof.Proof.LibPlainMatmul
import proofs.«102765_j20968030339123_1_alg».proof.Proof.LibColumnLayout
import proofs.«102765_j20968030339123_1_alg».proof.Proof.LibColumnBroadcast

noncomputable section

namespace Cert.Gcn.HostLaws

open Idealize.ShloMosaic Idealize.ShloMosaic.ValueIdx Cert.Gcn

/-! ## Re-layings read at an index -/

/-- A length-`e` vector laid along a row `[1, e]` and repeated down `a` rows reads, at `(p, q)`, the vector's entry `q`,
    whatever the row `p`. Holds for every `a` and `e` (for `e = 1` the only column is `0` on both sides). -/
theorem broadcastInDim_row_apply {α : Type} {a e : ℕ} (b : (⟨1, ![e]⟩ : Shape).Idx → α)
    (hb1 : (⟨1, ![e]⟩ : Shape).BroadcastsInDim ⟨2, ![1, e]⟩ (![1] : Fin 1 → Fin 2))
    (hb2 : (⟨2, ![1, e]⟩ : Shape).BroadcastsInDim ⟨2, ![a, e]⟩ (![0, 1] : Fin 2 → Fin 2))
    (p : Fin a) (q : Fin e) :
    broadcastInDim ⟨2, ![a, e]⟩ ![0, 1] hb2 (broadcastInDim ⟨2, ![1, e]⟩ ![1] hb1 b) (ix2 p q) = b (ix1 q) := by
  refine (broadcastInDim_apply _ hb2 _ (ix2 p q) (ix2 (0 : Fin 1) q) fun ax => ?_).trans
    (broadcastInDim_apply _ hb1 b (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if e = 1 then 0 else q.val
      split
      · have := q.isLt; omega
      · rfl
  · match ax with
    | ⟨0, _⟩ =>
      show q.val = if e = 1 then 0 else q.val
      split
      · have := q.isLt; omega
      · rfl

/-- A column `[a, 1]` repeated across `e` columns reads, at `(p, q)`, the column's entry `(p, 0)`. -/
theorem broadcastInDim_a1_ae_apply {α : Type} {a e : ℕ} (v : (⟨2, ![a, 1]⟩ : Shape).Idx → α)
    (h : (⟨2, ![a, 1]⟩ : Shape).BroadcastsInDim ⟨2, ![a, e]⟩ (![0, 1] : Fin 2 → Fin 2)) (p : Fin a) (q : Fin e) :
    broadcastInDim ⟨2, ![a, e]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-! ## The affine part -/

/-- The product of `A` and `W`, plus the bias repeated down the rows, plus the product of `X` and `Wr`, is the affine
    part of the layer. -/
theorem host_pre {a d e : ℕ} (A X : FVec Ideal ⟨2, ![a, d]⟩ .f32) (W Wr : FVec Ideal ⟨2, ![d, e]⟩ .f32)
    (b : FVec Ideal ⟨1, ![e]⟩ .f32)
    (hb1 : (⟨1, ![e]⟩ : Shape).BroadcastsInDim ⟨2, ![1, e]⟩ (![1] : Fin 1 → Fin 2))
    (hb2 : (⟨2, ![1, e]⟩ : Shape).BroadcastsInDim ⟨2, ![a, e]⟩ (![0, 1] : Fin 2 → Fin 2)) :
    addf (addf (Host.dotGeneral (F := Ideal) (DotDims.plain a d e) none A W)
               (broadcastInDim ⟨2, ![a, e]⟩ ![0, 1] hb2 (broadcastInDim ⟨2, ![1, e]⟩ ![1] hb1 b)))
         (Host.dotGeneral (F := Ideal) (DotDims.plain a d e) none X Wr)
      = preLayer A X W Wr (fun q => b (ix1 q)) := by
  funext j
  obtain ⟨p, q, rfl⟩ : ∃ p q, j = ix2 p q := ⟨j 0, j 1, eq_ix2 j⟩
  rw [addf_apply, addf_apply, broadcastInDim_row_apply b hb1 hb2 p q]
  refine (congrArg₂ (· + ·) (congrArg (· + b (ix1 q)) (PlainMatmul.plain_dotGeneral_apply a d e none .single A W p q))
    (PlainMatmul.plain_dotGeneral_apply a d e none .single X Wr p q)).trans ?_
  exact add_right_comm _ _ _

/-! ## The clamp -/

/-- The entrywise maximum with the zero pattern repeated over the shape is the clamp at that pattern from below. -/
theorem host_relu {s : Shape} (H : FVec Ideal s .f32)
    (hz : (⟨0, ![]⟩ : Shape).BroadcastsInDim s (![] : Fin 0 → Fin s.rank)) :
    maximumf H (broadcastInDim s ![] hz (constant (F := Ideal) ⟨0, ![]⟩ .f32 0x00000000#32)) = reluOf H := by
  funext j
  rw [maximumf_apply, broadcastInDim_scalar_apply]
  rfl

/-! ## The normalisation -/

/-- The exponential of an array, read at an index, is the exponential of the entry. -/
theorem hostExp_apply {s : Shape} (x : FVec Ideal s .f32) (i : s.Idx) : Host.exp x i = Ideal.exp (x i) := rfl

/-- The logarithm of an array, read at an index, is the logarithm of the entry. -/
theorem hostLog_apply {s : Shape} (x : FVec Ideal s .f32) (i : s.Idx) : Host.log x i = Ideal.log (x i) := rfl

/-- The maximum over the second axis from the pattern of `-∞`, taken once more against that pattern repeated over the rows,
    is at row `p` the row maximum of the specification: the reduction over one axis is a fold of `max` over the row's
    entries, in any order. -/
theorem hostRowMax_apply {a e : ℕ} (H : FVec Ideal ⟨2, ![a, e]⟩ .f32)
    (hr : (⟨2, ![a, e]⟩ : Shape).ReducesTo [1] ⟨1, ![a]⟩) (hu : 0 < (⟨0, ![]⟩ : Shape).numel)
    (hz : (⟨0, ![]⟩ : Shape).BroadcastsInDim ⟨1, ![a]⟩ (![] : Fin 0 → Fin 1)) (p : Fin a) :
    maximumf (broadcastInDim ⟨1, ![a]⟩ ![] hz (constant (F := Ideal) ⟨0, ![]⟩ .f32 0xFF800000#32))
        (Host.reduce FloatOps.maximumf H (constant (F := Ideal) ⟨0, ![]⟩ .f32 0xFF800000#32) hr hu) (ix1 p)
      = rowMax H p := by
  have hR : (⟨2, ![a, e]⟩ : Shape).Reduces [1] ⟨1, ![a]⟩ := ⟨hr.1, Nat.one_pos, hr.2⟩
  rw [maximumf_apply, broadcastInDim_scalar_apply,
    Host.reduce_eq_fold_single FloatOps.maximumf H _ hr hR hu (ix1 p)]
  have hl : (H ∘ hR.lift (ix1 p)) = fun q : Fin e => H (ix2 p q) := by
    funext k
    refine congrArg H ?_
    funext ax; apply Fin.ext
    match ax with
    | ⟨0, _⟩ => rfl
    | ⟨1, _⟩ => rfl
  rw [hl]
  rfl

/-- The eleven operations of the normalisation, composed, are the specification's: each row minus its maximum, minus the
    logarithm of the sum of the exponentials of those differences. -/
theorem host_lsm {a e : ℕ} (H : FVec Ideal ⟨2, ![a, e]⟩ .f32)
    (hr : (⟨2, ![a, e]⟩ : Shape).ReducesTo [1] ⟨1, ![a]⟩) (hu : 0 < (⟨0, ![]⟩ : Shape).numel)
    (hz : (⟨0, ![]⟩ : Shape).BroadcastsInDim ⟨1, ![a]⟩ (![] : Fin 0 → Fin 1))
    (hc1 : (⟨1, ![a]⟩ : Shape).BroadcastsInDim ⟨2, ![a, 1]⟩ (![0] : Fin 1 → Fin 2))
    (hc2 : (⟨2, ![a, 1]⟩ : Shape).BroadcastsInDim ⟨2, ![a, e]⟩ (![0, 1] : Fin 2 → Fin 2)) :
    subf
      (subf H (broadcastInDim ⟨2, ![a, e]⟩ ![0, 1] hc2 (broadcastInDim ⟨2, ![a, 1]⟩ ![0] hc1
        (maximumf (broadcastInDim ⟨1, ![a]⟩ ![] hz (constant (F := Ideal) ⟨0, ![]⟩ .f32 0xFF800000#32))
          (Host.reduce FloatOps.maximumf H (constant (F := Ideal) ⟨0, ![]⟩ .f32 0xFF800000#32) hr hu)))))
      (broadcastInDim ⟨2, ![a, e]⟩ ![0, 1] hc2 (Host.log (broadcastInDim ⟨2, ![a, 1]⟩ ![0] hc1
        (Host.reduceAdd
          (Host.exp (subf H (broadcastInDim ⟨2, ![a, e]⟩ ![0, 1] hc2 (broadcastInDim ⟨2, ![a, 1]⟩ ![0] hc1
            (maximumf (broadcastInDim ⟨1, ![a]⟩ ![] hz (constant (F := Ideal) ⟨0, ![]⟩ .f32 0xFF800000#32))
              (Host.reduce FloatOps.maximumf H (constant (F := Ideal) ⟨0, ![]⟩ .f32 0xFF800000#32) hr hu))))))
          (constant (F := Ideal) ⟨0, ![]⟩ .f32 0x00000000#32) hr hu))))
      = lsmOf H := by
  have hR : (⟨2, ![a, e]⟩ : Shape).Reduces [1] ⟨1, ![a]⟩ := ⟨hr.1, Nat.one_pos, hr.2⟩
  -- the first difference, read at an entry
  have hD : ∀ (p : Fin a) (q : Fin e),
      subf H (broadcastInDim ⟨2, ![a, e]⟩ ![0, 1] hc2 (broadcastInDim ⟨2, ![a, 1]⟩ ![0] hc1
        (maximumf (broadcastInDim ⟨1, ![a]⟩ ![] hz (constant (F := Ideal) ⟨0, ![]⟩ .f32 0xFF800000#32))
          (Host.reduce FloatOps.maximumf H (constant (F := Ideal) ⟨0, ![]⟩ .f32 0xFF800000#32) hr hu)))) (ix2 p q)
        = H (ix2 p q) - rowMax H p := fun p q => by
    rw [subf_apply, Cert.Lib.broadcastInDim_column_apply _ hc1 hc2 p q, hostRowMax_apply H hr hu hz p]
  funext j
  obtain ⟨p, q, rfl⟩ : ∃ p q, j = ix2 p q := ⟨j 0, j 1, eq_ix2 j⟩
  rw [subf_apply, hD p q, broadcastInDim_a1_ae_apply _ hc2 p q]
  rw [hostLog_apply, Cert.LibColumnLayout.broadcastInDim_a_a1_apply _ hc1 p (0 : Fin 1), hostReduceAdd_apply,
    Cert.LibColumnLayout.hostReduceAdd_rows_apply hr hR _ _ p, constant_apply, Ideal.ofBits_zero_f32, zero_add]
  show _ = (H (ix2 p q) - rowMax H p) - Ideal.log (∑ r : Fin e, Ideal.exp (H (ix2 p r) - rowMax H p))
  refine congrArg (fun t => (H (ix2 p q) - rowMax H p) - Ideal.log t) ?_
  exact Finset.sum_congr rfl fun r _ => by rw [hostExp_apply, hD p r]

end Cert.Gcn.HostLaws

end
-- ==== Proof.RefValue.lean ====
/-
  The reference program's result, read back as the network of its eleven arguments.

  The program is a list of 104 array operations; the contents of its buffers after the list is the left fold of the operations
  over the starting contents. The list is cut into eight consecutive windows, and a fold over a concatenation is the fold over
  the second part started from the fold over the first. Each window is read for an arbitrary starting valuation:

  * the three first stretches leave the two rows of the edge list, the in-degree of each node (one added per edge at the node
    it enters), that degree clamped at one from below, its reciprocal, and the mean of the node features over incoming edges;
  * each of the two hidden-layer windows leaves the clamp at zero of the affine layer of the aggregated and the plain
    features — the operations' spelling of that layer is the specification's, by the layer lemmas;
  * each of the two later aggregation windows leaves the mean over incoming edges of the previous hidden layer, taken with the
    edge rows and inverse degrees the first stretches left, which the windows in between do not write;
  * the last window leaves the row-wise normalisation of the affine layer of width ten; it is read in two parts (the affine
    layer, then the normalisation of an arbitrary array), since the normalisation mentions its operand three times.

  A window leaves every buffer it does not write as it found it: each operation writes one buffer, and a buffer outside the
  window's list of written buffers is written by none of them. The eleven arguments are in none of the eight lists, so they end
  as they started; and composing the eight readings, last window first, gives the network as a function of the arguments.
-/
import proofs.«102765_j20968030339123_1_alg».proof.Proof.RefDefs
import proofs.«102765_j20968030339123_1_alg».proof.Proof.LayerHost
import Idealize.ShloMosaic.Lib.StableHlo.Run

set_option maxHeartbeats 2000000
set_option maxRecDepth 16384

noncomputable section

namespace Cert.ReferenceIdeal.RefV

open Cert.ReferenceIdeal Cert.ReferenceIdeal.Gen Cert.ReferenceIdeal.ValueP Cert.Gcn Cert.Gcn.HostLaws
open Idealize.ShloMosaic Idealize.ShloMosaic.TcCoe Idealize.ShloMosaic.ValueIdx Idealize.SL.Sem Idealize.ShloMosaic.StableHlo

/-! ## Transport along a buffer's type -/

/-- Contents carried to a buffer's own type and back are the contents. -/
theorem ofBuf_toBuf {T : BufTy} (x : TRef sig T) (v : T.Contents (Elt Ideal)) : x.ofBuf (x.toBuf v) = v := by
  obtain ⟨ref, rfl, _, _⟩ := x
  rfl

/-! ## The fold over a concatenation -/

/-- Running two lists of operations one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## The dense layers as the operations spell them -/

/-- The dimension numbers of the two hidden layers' products are those of the plain product 100000×64 by 64×64. -/
theorem dot64_eq_plain : dot_S100000x64_S64x64_S100000x64_1_0_0_1_n_n = DotDims.plain 100000 64 64 := rfl

/-- The dimension numbers of the last layer's products are those of the plain product 100000×64 by 64×10. -/
theorem dot10_eq_plain : dot_S100000x64_S64x10_S100000x10_1_0_0_1_n_n = DotDims.plain 100000 64 10 := rfl

/-- A hidden layer as the operations spell it: two products, the bias repeated down the rows, two sums, and the maximum with
    the zero pattern repeated over the array. -/
def hostHidden (A X : FVec Ideal S100000x64 .f32) (Wo : FVec Ideal S64x64 .f32) (b : FVec Ideal S64 .f32)
    (Wr : FVec Ideal S64x64 .f32) : FVec Ideal S100000x64 .f32 :=
  maximumf
    (addf
      (addf (Host.dotGeneral dot_S100000x64_S64x64_S100000x64_1_0_0_1_n_n none A Wo)
        (broadcastInDim S100000x64 ![0, 1] bcast_S1x64_S100000x64_0_1 (broadcastInDim S1x64 ![1] bcast_S64_S1x64_1 b)))
      (Host.dotGeneral dot_S100000x64_S64x64_S100000x64_1_0_0_1_n_n none X Wr))
    (broadcastInDim S100000x64 ![] bcast_S_S100000x64 (constant (F := Ideal) S_ .f32 0x00000000#32))

/-- It is the clamp at zero of the affine layer. -/
theorem hostHidden_eq (A X : FVec Ideal S100000x64 .f32) (Wo : FVec Ideal S64x64 .f32) (b : FVec Ideal S64 .f32)
    (Wr : FVec Ideal S64x64 .f32) :
    hostHidden A X Wo b Wr = reluOf (preLayer A X Wo Wr (fun q => b (ix1 q))) := by
  unfold hostHidden
  rw [dot64_eq_plain]
  exact (host_relu _ bcast_S_S100000x64).trans
    (congrArg reluOf (host_pre A X Wo Wr b bcast_S64_S1x64_1 bcast_S1x64_S100000x64_0_1))

/-! ## The last layer as the operations spell it -/

/-- The last layer's affine part as the operations spell it: two products, the bias repeated down the rows, two sums. -/
def hostPre10 (A X : FVec Ideal S100000x64 .f32) (Wo : FVec Ideal S64x10 .f32) (b : FVec Ideal S10 .f32)
    (Wr : FVec Ideal S64x10 .f32) : FVec Ideal S100000x10 .f32 :=
  addf
    (addf (Host.dotGeneral dot_S100000x64_S64x10_S100000x10_1_0_0_1_n_n none A Wo)
      (broadcastInDim S100000x10 ![0, 1] bcast_S1x10_S100000x10_0_1 (broadcastInDim S1x10 ![1] bcast_S10_S1x10_1 b)))
    (Host.dotGeneral dot_S100000x64_S64x10_S100000x10_1_0_0_1_n_n none X Wr)

/-- It is the affine layer of width ten. -/
theorem hostPre10_eq (A X : FVec Ideal S100000x64 .f32) (Wo : FVec Ideal S64x10 .f32) (b : FVec Ideal S10 .f32)
    (Wr : FVec Ideal S64x10 .f32) :
    hostPre10 A X Wo b Wr = preLayer A X Wo Wr (fun q => b (ix1 q)) := by
  unfold hostPre10
  rw [dot10_eq_plain]
  exact host_pre A X Wo Wr b bcast_S10_S1x10_1 bcast_S1x10_S100000x10_0_1

/-- The row-wise normalisation as the operations spell it: the row maximum from the pattern of `-∞`, the difference, the
    exponentials, their row sums from the zero pattern, the logarithms, the second difference. -/
def hostLsm (H : FVec Ideal S100000x10 .f32) : FVec Ideal S100000x10 .f32 :=
  subf
    (subf H (broadcastInDim S100000x10 ![0, 1] bcast_S100000x1_S100000x10_0_1 (broadcastInDim S100000x1 ![0] bcast_S100000_S100000x1_0
        (maximumf (broadcastInDim S100000 ![] bcast_S_S100000 (constant (F := Ideal) S_ .f32 0xFF800000#32))
          (Host.reduce FloatOps.maximumf H (constant (F := Ideal) S_ .f32 0xFF800000#32) reducesTo_S100000x10_S100000_d1 h_S_)))))
    (broadcastInDim S100000x10 ![0, 1] bcast_S100000x1_S100000x10_0_1 (Host.log (broadcastInDim S100000x1 ![0] bcast_S100000_S100000x1_0
      (Host.reduceAdd
        (Host.exp (subf H (broadcastInDim S100000x10 ![0, 1] bcast_S100000x1_S100000x10_0_1 (broadcastInDim S100000x1 ![0] bcast_S100000_S100000x1_0
        (maximumf (broadcastInDim S100000 ![] bcast_S_S100000 (constant (F := Ideal) S_ .f32 0xFF800000#32))
          (Host.reduce FloatOps.maximumf H (constant (F := Ideal) S_ .f32 0xFF800000#32) reducesTo_S100000x10_S100000_d1 h_S_))))))
        (constant (F := Ideal) S_ .f32 0x00000000#32) reducesTo_S100000x10_S100000_d1 h_S_))))

/-- It is each row minus its maximum, minus the logarithm of the sum of the exponentials of those differences. -/
theorem hostLsm_eq (H : FVec Ideal S100000x10 .f32) : hostLsm H = lsmOf H := by
  unfold hostLsm
  exact host_lsm H reducesTo_S100000x10_S100000_d1 h_S_ bcast_S_S100000 bcast_S100000_S100000x1_0
    bcast_S100000x1_S100000x10_0_1
/-! ## The first stretch: the edge rows and the in-degrees -/

/-- The first row of the edge list, as a vector. -/
theorem read_A0a_v1 (W : Valuation τ sig (Elt Ideal)) :
    after (opsA0a (F := Ideal)) W (Proc.devRef .tc main_v1) = srcOf (W (Proc.devRef .tc main_arg1)) := by
  unfold srcOf
  after_results_simp <;> (try simp only [ofBuf_toBuf]) <;> rfl

/-- The second row of the edge list, as a vector. -/
theorem read_A0a_v3 (W : Valuation τ sig (Elt Ideal)) :
    after (opsA0a (F := Ideal)) W (Proc.devRef .tc main_v3) = dstOf (W (Proc.devRef .tc main_arg1)) := by
  unfold dstOf
  after_results_simp <;> (try simp only [ofBuf_toBuf]) <;> rfl

/-- The in-degree of each node. -/
theorem read_A0a_v7 (W : Valuation τ sig (Elt Ideal)) :
    after (opsA0a (F := Ideal)) W (Proc.devRef .tc main_v7) = degOf (dstOf (W (Proc.devRef .tc main_arg1))) := by
  unfold degOf dstOf
  after_results_simp <;> (try simp only [ofBuf_toBuf]) <;> rfl

/-- The pattern of one, which the clamp takes as its bound. -/
theorem read_A0a_cst_1 (W : Valuation τ sig (Elt Ideal)) :
    after (opsA0a (F := Ideal)) W (Proc.devRef .tc main_cst_1) = constant (F := Ideal) S_ .f32 0x3F800000#32 := by
  after_results_simp <;> (try simp only [ofBuf_toBuf]) <;> rfl

/-- The buffers the first stretch writes. -/
def wrA0a : List (Ref sig .tc) :=
  [main_v0, main_v1, main_v2, main_v3, main_cst, main_v4, main_cst_0, main_v5, main_v6, main_v7, main_cst_1]

/-- Every operation of that window writes one of them. -/
theorem writes_A0a : (opsA0a (F := Ideal)).Forall fun op =>
    op.writes ⊆ (wrA0a.map (Proc.devRef (τ := τ) .tc)).toFinset := by
  simp only [List.Forall, nullary_writes, unary_writes, binary_writes, ternary_writes, reshape_writes, wrA0a,
    Finset.singleton_subset_iff, List.map_cons, List.map_nil, List.toFinset_cons, List.toFinset_nil,
    Finset.mem_insert, Finset.mem_singleton, true_or, or_true, and_self]

/-- A buffer that window does not write keeps its contents. -/
theorem carry_A0a (W : Valuation τ sig (Elt Ideal)) {r : Ref sig .tc} (hr : r ∉ wrA0a) :
    after (opsA0a (F := Ideal)) W (Proc.devRef .tc r) = W (Proc.devRef .tc r) :=
  after_of_writes_sub _ W writes_A0a hr

/-! ## The second stretch: the clamp of the in-degrees at one -/

/-- The in-degree clamped at one from below. -/
theorem read_A0b_v8 (W : Valuation τ sig (Elt Ideal)) :
    after (opsA0b (F := Ideal)) W (Proc.devRef .tc main_v8) = clampOf (W (Proc.devRef .tc main_cst_1)) (W (Proc.devRef .tc main_v7)) := by
  unfold clampOf
  after_results_simp <;> (try simp only [ofBuf_toBuf]) <;> rfl

/-- The buffers the second stretch writes. -/
def wrA0b : List (Ref sig .tc) :=
  [main_call0_v0, main_call0_v1, main_v8]

/-- Every operation of that window writes one of them. -/
theorem writes_A0b : (opsA0b (F := Ideal)).Forall fun op =>
    op.writes ⊆ (wrA0b.map (Proc.devRef (τ := τ) .tc)).toFinset := by
  simp only [List.Forall, nullary_writes, unary_writes, binary_writes, ternary_writes, reshape_writes, wrA0b,
    Finset.singleton_subset_iff, List.map_cons, List.map_nil, List.toFinset_cons, List.toFinset_nil,
    Finset.mem_insert, Finset.mem_singleton, true_or, or_true, and_self]

/-- A buffer that window does not write keeps its contents. -/
theorem carry_A0b (W : Valuation τ sig (Elt Ideal)) {r : Ref sig .tc} (hr : r ∉ wrA0b) :
    after (opsA0b (F := Ideal)) W (Proc.devRef .tc r) = W (Proc.devRef .tc r) :=
  after_of_writes_sub _ W writes_A0b hr

/-! ## The third stretch: the reciprocals and the first aggregation -/

/-- One over the clamped in-degree. -/
theorem read_A0c_v10 (W : Valuation τ sig (Elt Ideal)) :
    after (opsA0c (F := Ideal)) W (Proc.devRef .tc main_v10) = invOf (W (Proc.devRef .tc main_v8)) := by
  unfold invOf
  after_results_simp <;> (try simp only [ofBuf_toBuf]) <;> rfl

/-- The mean over incoming edges of the node features. -/
theorem read_A0c_v23 (W : Valuation τ sig (Elt Ideal)) :
    after (opsA0c (F := Ideal)) W (Proc.devRef .tc main_v23)
      = aggrOf (W (Proc.devRef .tc main_v1)) (W (Proc.devRef .tc main_v3)) (invOf (W (Proc.devRef .tc main_v8))) (W (Proc.devRef .tc main_arg0)) := by
  unfold aggrOf invOf
  after_results_simp <;> (try simp only [ofBuf_toBuf]) <;> rfl

/-- The buffers the third stretch writes. -/
def wrA0c : List (Ref sig .tc) :=
  [main_cst_2, main_v9, main_v10, main_c, main_v11, main_v12, main_c_3, main_v13, main_v14, main_v15, main_v16, main_v17, main_cst_4, main_v18, main_v19, main_v20, main_v21, main_v22, main_v23]

/-- Every operation of that window writes one of them. -/
theorem writes_A0c : (opsA0c (F := Ideal)).Forall fun op =>
    op.writes ⊆ (wrA0c.map (Proc.devRef (τ := τ) .tc)).toFinset := by
  simp only [List.Forall, nullary_writes, unary_writes, binary_writes, ternary_writes, reshape_writes, wrA0c,
    Finset.singleton_subset_iff, List.map_cons, List.map_nil, List.toFinset_cons, List.toFinset_nil,
    Finset.mem_insert, Finset.mem_singleton, true_or, or_true, and_self]

/-- A buffer that window does not write keeps its contents. -/
theorem carry_A0c (W : Valuation τ sig (Elt Ideal)) {r : Ref sig .tc} (hr : r ∉ wrA0c) :
    after (opsA0c (F := Ideal)) W (Proc.devRef .tc r) = W (Proc.devRef .tc r) :=
  after_of_writes_sub _ W writes_A0c hr

/-! ## The first dense layer's window -/

/-- What the window's last operation leaves: the hidden layer of the window's inputs. -/
theorem read_L0_v30 (W : Valuation τ sig (Elt Ideal)) :
    after (opsL0 (F := Ideal)) W (Proc.devRef .tc main_v30)
      = hostHidden (W (Proc.devRef .tc main_v23)) (W (Proc.devRef .tc main_arg0)) (W (Proc.devRef .tc main_arg2))
          (W (Proc.devRef .tc main_arg3)) (W (Proc.devRef .tc main_arg4)) := by
  unfold hostHidden
  after_results_simp <;> rfl

/-- The buffers the first dense layer's window writes. -/
def wrL0 : List (Ref sig .tc) :=
  [main_v24, main_v25, main_v26, main_v27, main_v28, main_v29, main_call1_cst, main_call1_v0, main_v30]

/-- Every operation of that window writes one of them. -/
theorem writes_L0 : (opsL0 (F := Ideal)).Forall fun op =>
    op.writes ⊆ (wrL0.map (Proc.devRef (τ := τ) .tc)).toFinset := by
  simp only [List.Forall, nullary_writes, unary_writes, binary_writes, ternary_writes, reshape_writes, wrL0,
    Finset.singleton_subset_iff, List.map_cons, List.map_nil, List.toFinset_cons, List.toFinset_nil,
    Finset.mem_insert, Finset.mem_singleton, true_or, or_true, and_self]

/-- A buffer that window does not write keeps its contents. -/
theorem carry_L0 (W : Valuation τ sig (Elt Ideal)) {r : Ref sig .tc} (hr : r ∉ wrL0) :
    after (opsL0 (F := Ideal)) W (Proc.devRef .tc r) = W (Proc.devRef .tc r) :=
  after_of_writes_sub _ W writes_L0 hr

/-! ## The second aggregation's window -/

/-- What the window's last operation leaves: the mean over incoming edges of the first hidden layer, from the edge rows and the inverse
    degrees the first windows left. -/
theorem read_A1_v43 (W : Valuation τ sig (Elt Ideal)) :
    after (opsA1 (F := Ideal)) W (Proc.devRef .tc main_v43)
      = aggrOf (W (Proc.devRef .tc main_v1)) (W (Proc.devRef .tc main_v3)) (W (Proc.devRef .tc main_v10)) (W (Proc.devRef .tc main_v30)) := by
  unfold aggrOf
  after_results_simp <;> rfl

/-- The buffers the second aggregation's window writes. -/
def wrA1 : List (Ref sig .tc) :=
  [main_c_5, main_v31, main_v32, main_c_6, main_v33, main_v34, main_v35, main_v36, main_v37, main_cst_7, main_v38, main_v39, main_v40, main_v41, main_v42, main_v43]

/-- Every operation of that window writes one of them. -/
theorem writes_A1 : (opsA1 (F := Ideal)).Forall fun op =>
    op.writes ⊆ (wrA1.map (Proc.devRef (τ := τ) .tc)).toFinset := by
  simp only [List.Forall, nullary_writes, unary_writes, binary_writes, ternary_writes, reshape_writes, wrA1,
    Finset.singleton_subset_iff, List.map_cons, List.map_nil, List.toFinset_cons, List.toFinset_nil,
    Finset.mem_insert, Finset.mem_singleton, true_or, or_true, and_self]

/-- A buffer that window does not write keeps its contents. -/
theorem carry_A1 (W : Valuation τ sig (Elt Ideal)) {r : Ref sig .tc} (hr : r ∉ wrA1) :
    after (opsA1 (F := Ideal)) W (Proc.devRef .tc r) = W (Proc.devRef .tc r) :=
  after_of_writes_sub _ W writes_A1 hr

/-! ## The second dense layer's window -/

/-- What the window's last operation leaves: the hidden layer of the window's inputs. -/
theorem read_L1_v50 (W : Valuation τ sig (Elt Ideal)) :
    after (opsL1 (F := Ideal)) W (Proc.devRef .tc main_v50)
      = hostHidden (W (Proc.devRef .tc main_v43)) (W (Proc.devRef .tc main_v30)) (W (Proc.devRef .tc main_arg5))
          (W (Proc.devRef .tc main_arg6)) (W (Proc.devRef .tc main_arg7)) := by
  unfold hostHidden
  after_results_simp <;> rfl

/-- The buffers the second dense layer's window writes. -/
def wrL1 : List (Ref sig .tc) :=
  [main_v44, main_v45, main_v46, main_v47, main_v48, main_v49, main_call2_cst, main_call2_v0, main_v50]

/-- Every operation of that window writes one of them. -/
theorem writes_L1 : (opsL1 (F := Ideal)).Forall fun op =>
    op.writes ⊆ (wrL1.map (Proc.devRef (τ := τ) .tc)).toFinset := by
  simp only [List.Forall, nullary_writes, unary_writes, binary_writes, ternary_writes, reshape_writes, wrL1,
    Finset.singleton_subset_iff, List.map_cons, List.map_nil, List.toFinset_cons, List.toFinset_nil,
    Finset.mem_insert, Finset.mem_singleton, true_or, or_true, and_self]

/-- A buffer that window does not write keeps its contents. -/
theorem carry_L1 (W : Valuation τ sig (Elt Ideal)) {r : Ref sig .tc} (hr : r ∉ wrL1) :
    after (opsL1 (F := Ideal)) W (Proc.devRef .tc r) = W (Proc.devRef .tc r) :=
  after_of_writes_sub _ W writes_L1 hr

/-! ## The third aggregation's window -/

/-- What the window's last operation leaves: the mean over incoming edges of the second hidden layer, from the edge rows and the inverse
    degrees the first windows left. -/
theorem read_A2_v63 (W : Valuation τ sig (Elt Ideal)) :
    after (opsA2 (F := Ideal)) W (Proc.devRef .tc main_v63)
      = aggrOf (W (Proc.devRef .tc main_v1)) (W (Proc.devRef .tc main_v3)) (W (Proc.devRef .tc main_v10)) (W (Proc.devRef .tc main_v50)) := by
  unfold aggrOf
  after_results_simp <;> rfl

/-- The buffers the third aggregation's window writes. -/
def wrA2 : List (Ref sig .tc) :=
  [main_c_8, main_v51, main_v52, main_c_9, main_v53, main_v54, main_v55, main_v56, main_v57, main_cst_10, main_v58, main_v59, main_v60, main_v61, main_v62, main_v63]

/-- Every operation of that window writes one of them. -/
theorem writes_A2 : (opsA2 (F := Ideal)).Forall fun op =>
    op.writes ⊆ (wrA2.map (Proc.devRef (τ := τ) .tc)).toFinset := by
  simp only [List.Forall, nullary_writes, unary_writes, binary_writes, ternary_writes, reshape_writes, wrA2,
    Finset.singleton_subset_iff, List.map_cons, List.map_nil, List.toFinset_cons, List.toFinset_nil,
    Finset.mem_insert, Finset.mem_singleton, true_or, or_true, and_self]

/-- A buffer that window does not write keeps its contents. -/
theorem carry_A2 (W : Valuation τ sig (Elt Ideal)) {r : Ref sig .tc} (hr : r ∉ wrA2) :
    after (opsA2 (F := Ideal)) W (Proc.devRef .tc r) = W (Proc.devRef .tc r) :=
  after_of_writes_sub _ W writes_A2 hr

/-! ## The last layer's window, in two parts -/

section TwoParts
variable {F : FTy → Type} [FloatOps F]

/-- The window's first six operations: the affine layer of width ten. -/
abbrev opsL2a : List (HloOp τ sig (Elt F)) :=
  [ binary main_v63 main_arg8 main_v64 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    unary main_arg9 main_v65 (broadcastInDim S1x10 ![1] bcast_S10_S1x10_1 : (⟨S10, .f32⟩ : BufTy).Contents (Elt F) → (⟨S1x10, .f32⟩ : BufTy).Contents (Elt F)),
    unary main_v65 main_v66 (broadcastInDim S100000x10 ![0, 1] bcast_S1x10_S100000x10_0_1 : (⟨S1x10, .f32⟩ : BufTy).Contents (Elt F) → (⟨S100000x10, .f32⟩ : BufTy).Contents (Elt F)),
    binary main_v64 main_v66 main_v67 (addf : (⟨S100000x10, .f32⟩ : BufTy).Contents (Elt F) → (⟨S100000x10, .f32⟩ : BufTy).Contents (Elt F) → (⟨S100000x10, .f32⟩ : BufTy).Contents (Elt F)),
    binary main_v50 main_arg10 main_v68 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    binary main_v67 main_v68 main_v69 (addf : (⟨S100000x10, .f32⟩ : BufTy).Contents (Elt F) → (⟨S100000x10, .f32⟩ : BufTy).Contents (Elt F) → (⟨S100000x10, .f32⟩ : BufTy).Contents (Elt F)) ]

/-- The window's other fifteen operations: the row-wise normalisation. -/
abbrev opsL2b : List (HloOp τ sig (Elt F)) :=
  [ TRef.nullary (TRef.of (T := ⟨S_, .f32⟩) main_call3_cst) (constant S_ .f32 0xFF800000#32),
    TRef.binary (TRef.of (T := ⟨S100000x10, .f32⟩) main_v69) (TRef.of (T := ⟨S_, .f32⟩) main_call3_cst) (TRef.of (T := ⟨S100000, .f32⟩) main_call3_v0) (fun x v => Host.reduce FloatOps.maximumf x v reducesTo_S100000x10_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v69) (TRef.of (T := ⟨S100000x10, .f32⟩) main_call3_v4) (TRef.of (T := ⟨S100000x10, .f32⟩) main_call3_v5) subf,
    TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v70) subf ]

/-- The two parts, in order, are the window. -/
theorem opsL2_split : (opsL2 : List (HloOp τ sig (Elt F))) = opsL2a ++ opsL2b := rfl

end TwoParts

/-- What the first part leaves: the last affine layer of the window's inputs. -/
theorem read_L2a_v69 (W : Valuation τ sig (Elt Ideal)) :
    after (opsL2a (F := Ideal)) W (Proc.devRef .tc main_v69)
      = hostPre10 (W (Proc.devRef .tc main_v63)) (W (Proc.devRef .tc main_v50)) (W (Proc.devRef .tc main_arg8))
          (W (Proc.devRef .tc main_arg9)) (W (Proc.devRef .tc main_arg10)) := by
  unfold hostPre10
  after_results_simp <;> rfl

/-- What the second part leaves: the normalisation of the array it starts from. -/
theorem read_L2b_v70 (W : Valuation τ sig (Elt Ideal)) :
    after (opsL2b (F := Ideal)) W (Proc.devRef .tc main_v70) = hostLsm (W (Proc.devRef .tc main_v69)) := by
  unfold hostLsm
  after_results_simp
  simp only [ofBuf_toBuf]
  rfl

/-- What the window's last operation leaves: the normalisation of the last affine layer of the window's inputs. -/
theorem read_L2_v70 (W : Valuation τ sig (Elt Ideal)) :
    after (opsL2 (F := Ideal)) W (Proc.devRef .tc main_v70)
      = hostLsm (hostPre10 (W (Proc.devRef .tc main_v63)) (W (Proc.devRef .tc main_v50)) (W (Proc.devRef .tc main_arg8))
          (W (Proc.devRef .tc main_arg9)) (W (Proc.devRef .tc main_arg10))) := by
  rw [opsL2_split, after_append, read_L2b_v70, read_L2a_v69]

/-- The buffers the last layer's window writes. -/
def wrL2 : List (Ref sig .tc) :=
  [main_v64, main_v65, main_v66, main_v67, main_v68, main_v69, main_call3_cst, main_call3_v0, main_call3_cst_0, main_call3_v1, main_call3_v2, main_call3_v3, main_call3_v4, main_call3_v5, main_call3_v6, main_call3_cst_1, main_call3_v7, main_call3_v8, main_call3_v9, main_call3_v10, main_v70]

/-- Every operation of that window writes one of them. -/
theorem writes_L2 : (opsL2 (F := Ideal)).Forall fun op =>
    op.writes ⊆ (wrL2.map (Proc.devRef (τ := τ) .tc)).toFinset := by
  simp only [List.Forall, nullary_writes, unary_writes, binary_writes, ternary_writes, reshape_writes, wrL2,
    Finset.singleton_subset_iff, List.map_cons, List.map_nil, List.toFinset_cons, List.toFinset_nil,
    Finset.mem_insert, Finset.mem_singleton, true_or, or_true, and_self]

/-- A buffer that window does not write keeps its contents. -/
theorem carry_L2 (W : Valuation τ sig (Elt Ideal)) {r : Ref sig .tc} (hr : r ∉ wrL2) :
    after (opsL2 (F := Ideal)) W (Proc.devRef .tc r) = W (Proc.devRef .tc r) :=
  after_of_writes_sub _ W writes_L2 hr

/-! ## The whole program -/

/-- A buffer that none of the eight windows writes keeps its contents through the whole program. -/
theorem kept_of (V : Valuation τ sig (Elt Ideal)) {r : Ref sig .tc}
    (h1 : r ∉ wrA0a) (h2 : r ∉ wrA0b) (h3 : r ∉ wrA0c) (h4 : r ∉ wrL0) (h5 : r ∉ wrA1) (h6 : r ∉ wrL1)
    (h7 : r ∉ wrA2) (h8 : r ∉ wrL2) :
    after (ops (F := Ideal)) V (Proc.devRef .tc r) = V (Proc.devRef .tc r) := by
  rw [ops_split, after_append, after_append, after_append, after_append, after_append, after_append, after_append,
    carry_L2 _ h8, carry_A2 _ h7, carry_L1 _ h6, carry_A1 _ h5, carry_L0 _ h4, carry_A0c _ h3, carry_A0b _ h2,
    carry_A0a _ h1]

/-- From any contents, the program's result is the network of the eleven arguments' contents: the windows are read back
    one by one, the last first; each dense window is the specification's layer, each aggregation window the mean over
    incoming edges, and the three first stretches give the edge rows and the inverse clamped in-degrees. -/
theorem value_of (V : Valuation τ sig (Elt Ideal)) :
    after (ops (F := Ideal)) V (Proc.devRef .tc main_v70)
      = outOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold outOf hiddenOf degInvOf
  rw [ops_split, after_append, after_append, after_append, after_append, after_append, after_append, after_append]
  -- the last layer
  rw [read_L2_v70, hostLsm_eq, hostPre10_eq]
  -- the third aggregation
  rw [read_A2_v63,
    carry_A2 (r := main_v50) _ (by decide),
    carry_A2 (r := main_arg8) _ (by decide),
    carry_A2 (r := main_arg9) _ (by decide),
    carry_A2 (r := main_arg10) _ (by decide)]
  -- the second dense layer
  rw [read_L1_v50, hostHidden_eq,
    carry_L1 (r := main_v1) _ (by decide),
    carry_L1 (r := main_v3) _ (by decide),
    carry_L1 (r := main_v10) _ (by decide),
    carry_L1 (r := main_arg8) _ (by decide),
    carry_L1 (r := main_arg9) _ (by decide),
    carry_L1 (r := main_arg10) _ (by decide)]
  -- the second aggregation
  rw [read_A1_v43,
    carry_A1 (r := main_v30) _ (by decide),
    carry_A1 (r := main_v1) _ (by decide),
    carry_A1 (r := main_v3) _ (by decide),
    carry_A1 (r := main_v10) _ (by decide),
    carry_A1 (r := main_arg5) _ (by decide),
    carry_A1 (r := main_arg6) _ (by decide),
    carry_A1 (r := main_arg7) _ (by decide),
    carry_A1 (r := main_arg8) _ (by decide),
    carry_A1 (r := main_arg9) _ (by decide),
    carry_A1 (r := main_arg10) _ (by decide)]
  -- the first dense layer
  rw [read_L0_v30, hostHidden_eq,
    carry_L0 (r := main_v1) _ (by decide),
    carry_L0 (r := main_v3) _ (by decide),
    carry_L0 (r := main_v10) _ (by decide),
    carry_L0 (r := main_arg5) _ (by decide),
    carry_L0 (r := main_arg6) _ (by decide),
    carry_L0 (r := main_arg7) _ (by decide),
    carry_L0 (r := main_arg8) _ (by decide),
    carry_L0 (r := main_arg9) _ (by decide),
    carry_L0 (r := main_arg10) _ (by decide)]
  -- the reciprocals and the first aggregation
  rw [read_A0c_v23, read_A0c_v10,
    carry_A0c (r := main_v1) _ (by decide),
    carry_A0c (r := main_v3) _ (by decide),
    carry_A0c (r := main_arg0) _ (by decide),
    carry_A0c (r := main_arg2) _ (by decide),
    carry_A0c (r := main_arg3) _ (by decide),
    carry_A0c (r := main_arg4) _ (by decide),
    carry_A0c (r := main_arg5) _ (by decide),
    carry_A0c (r := main_arg6) _ (by decide),
    carry_A0c (r := main_arg7) _ (by decide),
    carry_A0c (r := main_arg8) _ (by decide),
    carry_A0c (r := main_arg9) _ (by decide),
    carry_A0c (r := main_arg10) _ (by decide)]
  -- the clamp
  rw [read_A0b_v8,
    carry_A0b (r := main_v1) _ (by decide),
    carry_A0b (r := main_v3) _ (by decide),
    carry_A0b (r := main_arg0) _ (by decide),
    carry_A0b (r := main_arg2) _ (by decide),
    carry_A0b (r := main_arg3) _ (by decide),
    carry_A0b (r := main_arg4) _ (by decide),
    carry_A0b (r := main_arg5) _ (by decide),
    carry_A0b (r := main_arg6) _ (by decide),
    carry_A0b (r := main_arg7) _ (by decide),
    carry_A0b (r := main_arg8) _ (by decide),
    carry_A0b (r := main_arg9) _ (by decide),
    carry_A0b (r := main_arg10) _ (by decide)]
  -- the edge rows and the in-degrees
  rw [read_A0a_v1, read_A0a_v3, read_A0a_v7, read_A0a_cst_1,
    carry_A0a (r := main_arg0) _ (by decide),
    carry_A0a (r := main_arg2) _ (by decide),
    carry_A0a (r := main_arg3) _ (by decide),
    carry_A0a (r := main_arg4) _ (by decide),
    carry_A0a (r := main_arg5) _ (by decide),
    carry_A0a (r := main_arg6) _ (by decide),
    carry_A0a (r := main_arg7) _ (by decide),
    carry_A0a (r := main_arg8) _ (by decide),
    carry_A0a (r := main_arg9) _ (by decide),
    carry_A0a (r := main_arg10) _ (by decide)]

/-- The reference program's result, from the launch contents, is the network of the eleven arguments. -/
theorem ref_value (m : (ℓ : Loc nD τ sig) → Buf (Elt Ideal) ℓ) (d : Dev nD) :
    after (ops (F := Ideal)) (launchContents m d) (Proc.devRef .tc main_v70)
      = outOf (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  value_of (launchContents m d)

/-- Argument 0 ends as it started. -/
theorem ref_kept_arg0 (m : (ℓ : Loc nD τ sig) → Buf (Elt Ideal) ℓ) (d : Dev nD) :
    after (ops (F := Ideal)) (launchContents m d) (Proc.devRef .tc main_arg0) = m ((d.tc : Thread nD τ).loc main_arg0) :=
  kept_of (launchContents m d) (by decide) (by decide) (by decide) (by decide) (by decide) (by decide) (by decide) (by decide)

/-- Argument 1 ends as it started. -/
theorem ref_kept_arg1 (m : (ℓ : Loc nD τ sig) → Buf (Elt Ideal) ℓ) (d : Dev nD) :
    after (ops (F := Ideal)) (launchContents m d) (Proc.devRef .tc main_arg1) = m ((d.tc : Thread nD τ).loc main_arg1) :=
  kept_of (launchContents m d) (by decide) (by decide) (by decide) (by decide) (by decide) (by decide) (by decide) (by decide)

/-- Argument 2 ends as it started. -/
theorem ref_kept_arg2 (m : (ℓ : Loc nD τ sig) → Buf (Elt Ideal) ℓ) (d : Dev nD) :
    after (ops (F := Ideal)) (launchContents m d) (Proc.devRef .tc main_arg2) = m ((d.tc : Thread nD τ).loc main_arg2) :=
  kept_of (launchContents m d) (by decide) (by decide) (by decide) (by decide) (by decide) (by decide) (by decide) (by decide)

/-- Argument 3 ends as it started. -/
theorem ref_kept_arg3 (m : (ℓ : Loc nD τ sig) → Buf (Elt Ideal) ℓ) (d : Dev nD) :
    after (ops (F := Ideal)) (launchContents m d) (Proc.devRef .tc main_arg3) = m ((d.tc : Thread nD τ).loc main_arg3) :=
  kept_of (launchContents m d) (by decide) (by decide) (by decide) (by decide) (by decide) (by decide) (by decide) (by decide)

/-- Argument 4 ends as it started. -/
theorem ref_kept_arg4 (m : (ℓ : Loc nD τ sig) → Buf (Elt Ideal) ℓ) (d : Dev nD) :
    after (ops (F := Ideal)) (launchContents m d) (Proc.devRef .tc main_arg4) = m ((d.tc : Thread nD τ).loc main_arg4) :=
  kept_of (launchContents m d) (by decide) (by decide) (by decide) (by decide) (by decide) (by decide) (by decide) (by decide)

/-- Argument 5 ends as it started. -/
theorem ref_kept_arg5 (m : (ℓ : Loc nD τ sig) → Buf (Elt Ideal) ℓ) (d : Dev nD) :
    after (ops (F := Ideal)) (launchContents m d) (Proc.devRef .tc main_arg5) = m ((d.tc : Thread nD τ).loc main_arg5) :=
  kept_of (launchContents m d) (by decide) (by decide) (by decide) (by decide) (by decide) (by decide) (by decide) (by decide)

/-- Argument 6 ends as it started. -/
theorem ref_kept_arg6 (m : (ℓ : Loc nD τ sig) → Buf (Elt Ideal) ℓ) (d : Dev nD) :
    after (ops (F := Ideal)) (launchContents m d) (Proc.devRef .tc main_arg6) = m ((d.tc : Thread nD τ).loc main_arg6) :=
  kept_of (launchContents m d) (by decide) (by decide) (by decide) (by decide) (by decide) (by decide) (by decide) (by decide)

/-- Argument 7 ends as it started. -/
theorem ref_kept_arg7 (m : (ℓ : Loc nD τ sig) → Buf (Elt Ideal) ℓ) (d : Dev nD) :
    after (ops (F := Ideal)) (launchContents m d) (Proc.devRef .tc main_arg7) = m ((d.tc : Thread nD τ).loc main_arg7) :=
  kept_of (launchContents m d) (by decide) (by decide) (by decide) (by decide) (by decide) (by decide) (by decide) (by decide)

/-- Argument 8 ends as it started. -/
theorem ref_kept_arg8 (m : (ℓ : Loc nD τ sig) → Buf (Elt Ideal) ℓ) (d : Dev nD) :
    after (ops (F := Ideal)) (launchContents m d) (Proc.devRef .tc main_arg8) = m ((d.tc : Thread nD τ).loc main_arg8) :=
  kept_of (launchContents m d) (by decide) (by decide) (by decide) (by decide) (by decide) (by decide) (by decide) (by decide)

/-- Argument 9 ends as it started. -/
theorem ref_kept_arg9 (m : (ℓ : Loc nD τ sig) → Buf (Elt Ideal) ℓ) (d : Dev nD) :
    after (ops (F := Ideal)) (launchContents m d) (Proc.devRef .tc main_arg9) = m ((d.tc : Thread nD τ).loc main_arg9) :=
  kept_of (launchContents m d) (by decide) (by decide) (by decide) (by decide) (by decide) (by decide) (by decide) (by decide)

/-- Argument 10 ends as it started. -/
theorem ref_kept_arg10 (m : (ℓ : Loc nD τ sig) → Buf (Elt Ideal) ℓ) (d : Dev nD) :
    after (ops (F := Ideal)) (launchContents m d) (Proc.devRef .tc main_arg10) = m ((d.tc : Thread nD τ).loc main_arg10) :=
  kept_of (launchContents m d) (by decide) (by decide) (by decide) (by decide) (by decide) (by decide) (by decide) (by decide)

end Cert.ReferenceIdeal.RefV

end
-- ==== Proof.Bridge.lean ====
/-
  The two programs name the same functions.

  The idealized kernel's program and the reference apply the same host operations to the edge list and to a feature array;
  each program prints its own copy of the dimension records and side conditions of those operations, equal field by field.
  So the source and destination rows, the inverse clamped in-degrees, the aggregation, a hidden layer and the whole network,
  defined once over each program's names, are the same functions.
-/
import proofs.«102765_j20968030339123_1_alg».proof.Proof.KernelValue
import proofs.«102765_j20968030339123_1_alg».proof.Proof.RefDefs

set_option maxRecDepth 16384

noncomputable section

namespace Cert.Bridge

open Idealize.ShloMosaic Cert.Gcn

theorem src_eq (E : IVec Cert.KernelIdeal.S2x1600000 32) :
    Cert.ReferenceIdeal.RefV.srcOf E = Cert.KernelIdeal.HostV.srcOf E := rfl

theorem dst_eq (E : IVec Cert.KernelIdeal.S2x1600000 32) :
    Cert.ReferenceIdeal.RefV.dstOf E = Cert.KernelIdeal.HostV.dstOf E := rfl

theorem degInv_eq (dv : IVec Cert.KernelIdeal.S1600000 32) :
    Cert.ReferenceIdeal.RefV.degInvOf dv = Cert.KernelIdeal.HostV.degInvOf dv := rfl

theorem aggr_eq (sv dv : IVec Cert.KernelIdeal.S1600000 32) (di : FVec Ideal Cert.KernelIdeal.S100000 .f32)
    (f : FVec Ideal Cert.KernelIdeal.S100000x64 .f32) :
    Cert.ReferenceIdeal.RefV.aggrOf sv dv di f = Cert.KernelIdeal.HostV.aggrOf sv dv di f := rfl

theorem hidden_eq (E : IVec Cert.KernelIdeal.S2x1600000 32) (f : FVec Ideal Cert.KernelIdeal.S100000x64 .f32)
    (Wo : FVec Ideal Cert.KernelIdeal.S64x64 .f32) (b : FVec Ideal Cert.KernelIdeal.S64 .f32)
    (Wr : FVec Ideal Cert.KernelIdeal.S64x64 .f32) :
    Cert.ReferenceIdeal.RefV.hiddenOf E f Wo b Wr = Cert.KernelIdeal.KV.hiddenOf E f Wo b Wr := by
  unfold Cert.ReferenceIdeal.RefV.hiddenOf Cert.KernelIdeal.KV.hiddenOf
  rw [src_eq, dst_eq, degInv_eq, aggr_eq]

theorem out_eq (x : FVec Ideal Cert.KernelIdeal.S100000x64 .f32) (E : IVec Cert.KernelIdeal.S2x1600000 32)
    (W0 : FVec Ideal Cert.KernelIdeal.S64x64 .f32) (b0 : FVec Ideal Cert.KernelIdeal.S64 .f32) (Wr0 : FVec Ideal Cert.KernelIdeal.S64x64 .f32)
    (W1 : FVec Ideal Cert.KernelIdeal.S64x64 .f32) (b1 : FVec Ideal Cert.KernelIdeal.S64 .f32) (Wr1 : FVec Ideal Cert.KernelIdeal.S64x64 .f32)
    (W2 : FVec Ideal Cert.KernelIdeal.S64x10 .f32) (b2 : FVec Ideal Cert.KernelIdeal.S10 .f32) (Wr2 : FVec Ideal Cert.KernelIdeal.S64x10 .f32) :
    Cert.ReferenceIdeal.RefV.outOf x E W0 b0 Wr0 W1 b1 Wr1 W2 b2 Wr2 = Cert.KernelIdeal.KV.outOf x E W0 b0 Wr0 W1 b1 Wr1 W2 b2 Wr2 := by
  unfold Cert.ReferenceIdeal.RefV.outOf Cert.KernelIdeal.KV.outOf
  rw [hidden_eq, hidden_eq, src_eq, dst_eq, degInv_eq, aggr_eq]

end Cert.Bridge

end
-- ==== Proof.lean ====
/-
  The certificate's claims.

  The kernel's program is three launches of a dense layer among host operations; the reference is the same network written
  with host operations only. Both aggregate features over incoming edges in the same way; a layer is
  `(agg · W_out + x · W_root) + b` in the kernel and `(agg · W_out + b) + x · W_root` in the reference, equal on the
  extended reals because addition there is commutative and associative; the clamp at zero and the row-wise log-softmax are
  the same operations on both sides. So both programs end with the same function of the eleven arguments in their result
  buffer. The three frames come from the runs themselves; the ideal pass rewrote nothing, so `preserves` asks nothing.
-/
import proofs.«102765_j20968030339123_1_alg».proof.Defs
import proofs.«102765_j20968030339123_1_alg».proof.Proof.Gen.Kernel
import proofs.«102765_j20968030339123_1_alg».proof.Proof.Gen.Kernel.Frame
import proofs.«102765_j20968030339123_1_alg».proof.Proof.Gen.KernelIdeal
import proofs.«102765_j20968030339123_1_alg».proof.Proof.Gen.KernelIdeal.Frame
import proofs.«102765_j20968030339123_1_alg».proof.Proof.Gen.ReferenceIdeal
import proofs.«102765_j20968030339123_1_alg».proof.Proof.Gen.Pre_finite_inputs
import proofs.«102765_j20968030339123_1_alg».proof.Proof.KernelRun
import proofs.«102765_j20968030339123_1_alg».proof.Proof.KernelValue
import proofs.«102765_j20968030339123_1_alg».proof.Proof.RefRun
import proofs.«102765_j20968030339123_1_alg».proof.Proof.RefValue
import proofs.«102765_j20968030339123_1_alg».proof.Proof.Bridge
import Idealize.ShloMosaic.Adequacy
import Idealize.ShloMosaic.Init

set_option maxRecDepth 16384

noncomputable section

namespace Cert.Proof

open Idealize.ShloMosaic Idealize.ShloMosaic.StableHlo Idealize.SL.Sem

/-- The kernel as printed runs to the end without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations, none of which writes an argument. -/
theorem frame_ri : Cert.frame_ReferenceIdeal := fun m ρ _ =>
  (θ_run Cert.ReferenceIdeal.defs _ _).mono (fun _ h c =>
      ⟨(h c _).trans (Cert.ReferenceIdeal.RefV.ref_kept_arg0 m c), (h c _).trans (Cert.ReferenceIdeal.RefV.ref_kept_arg1 m c),
       (h c _).trans (Cert.ReferenceIdeal.RefV.ref_kept_arg2 m c), (h c _).trans (Cert.ReferenceIdeal.RefV.ref_kept_arg3 m c),
       (h c _).trans (Cert.ReferenceIdeal.RefV.ref_kept_arg4 m c), (h c _).trans (Cert.ReferenceIdeal.RefV.ref_kept_arg5 m c),
       (h c _).trans (Cert.ReferenceIdeal.RefV.ref_kept_arg6 m c), (h c _).trans (Cert.ReferenceIdeal.RefV.ref_kept_arg7 m c),
       (h c _).trans (Cert.ReferenceIdeal.RefV.ref_kept_arg8 m c), (h c _).trans (Cert.ReferenceIdeal.RefV.ref_kept_arg9 m c),
       (h c _).trans (Cert.ReferenceIdeal.RefV.ref_kept_arg10 m c)⟩)
    (Cert.ReferenceIdeal.ValueP.run_raw (F := Ideal) m ρ)

/-- The ideal pass rewrote no operation. -/
theorem preserves : Cert.preserves_Kernel_KernelIdeal := trivial

/-- From memories that agree on the arguments both idealized programs end with the network of the arguments in their
    result buffer. -/
theorem algebraic : Cert.algebraic_KernelIdeal_ReferenceIdeal := by
  intro m ρ m' ρ' _ hagree
  refine ⟨fun c => Cert.KernelIdeal.KV.outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KV.kernel_value m ρ c), (h c).2⟩)
      (Cert.KernelIdeal.RunV.run_value m ρ)
  · refine (θ_run Cert.ReferenceIdeal.defs _ _).mono (fun r h c => ⟨?_,
       (h c _).trans (Cert.ReferenceIdeal.RefV.ref_kept_arg0 m' c), (h c _).trans (Cert.ReferenceIdeal.RefV.ref_kept_arg1 m' c),
       (h c _).trans (Cert.ReferenceIdeal.RefV.ref_kept_arg2 m' c), (h c _).trans (Cert.ReferenceIdeal.RefV.ref_kept_arg3 m' c),
       (h c _).trans (Cert.ReferenceIdeal.RefV.ref_kept_arg4 m' c), (h c _).trans (Cert.ReferenceIdeal.RefV.ref_kept_arg5 m' c),
       (h c _).trans (Cert.ReferenceIdeal.RefV.ref_kept_arg6 m' c), (h c _).trans (Cert.ReferenceIdeal.RefV.ref_kept_arg7 m' c),
       (h c _).trans (Cert.ReferenceIdeal.RefV.ref_kept_arg8 m' c), (h c _).trans (Cert.ReferenceIdeal.RefV.ref_kept_arg9 m' c),
       (h c _).trans (Cert.ReferenceIdeal.RefV.ref_kept_arg10 m' c)⟩)
      (Cert.ReferenceIdeal.ValueP.run_raw (F := Ideal) m' ρ')
    obtain ⟨a0, a1, a2, a3, a4, a5, a6, a7, a8, a9, a10⟩ := hagree c
    refine (h c Cert.ReferenceIdeal.main_v70).trans ((Cert.ReferenceIdeal.RefV.ref_value m' c).trans ?_)
    rw [a0, a1, a2, a3, a4, a5, a6, a7, a8, a9, a10]
    exact Cert.Bridge.out_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
